-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S4x1x256x1x1 : S_.BroadcastsInDim S4x1x256x1x1 (![] : Fin 0 → Fin S4x1x256x1x1.rank)
  reducesTo_S4x1x256x1x1_S_d0_1_2_3_4 : S4x1x256x1x1.ReducesTo [0, 1, 2, 3, 4] S_
  bcast_S_S4x1x1x28x28 : S_.BroadcastsInDim S4x1x1x28x28 (![] : Fin 0 → Fin S4x1x1x28x28.rank)
  reducesTo_S4x1x1x28x28_S_d0_1_2_3_4 : S4x1x1x28x28.ReducesTo [0, 1, 2, 3, 4] S_

variable [Facts]

def fn {F : FTy → Type} [FloatOps F] (main_arg0 : FVec F S64x256x56x56 .f32) (main_arg1 : IVec S64 32) (main_arg2 : FVec F S4x1x256x1x1 .f32) (main_arg3 : FVec F S4x1x1x28x28 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S4x1x256x1x1 .f32 := Host.absf main_arg2
  let main_cst_0 : FVec F S_ .f32 := constant S_ .f32 0x7F800000#32
  let main_v5 : FVec F S4x1x256x1x1 .f32 := broadcastInDim S4x1x256x1x1 ![] bcast_S_S4x1x256x1x1 main_cst_0
  let main_v6 : IVec S4x1x256x1x1 1 := cmpf .olt main_v4 main_v5
  let main_c_1 : IVec S_ 1 := constantI S_ 1 1#1
  let main_v7 : IVec S_ 1 := (fun x v => Host.reduce IntOp.andi x v reducesTo_S4x1x256x1x1_S_d0_1_2_3_4 h_S_) main_v6 main_c_1
  let main_v8 : IVec S_ 1 := andi main_v3 main_v7
  let main_v9 : FVec F S4x1x1x28x28 .f32 := Host.absf main_arg3
  let main_cst_2 : FVec F S_ .f32 := constant S_ .f32 0x7F800000#32
  let main_v10 : FVec F S4x1x1x28x28 .f32 := broadcastInDim S4x1x1x28x28 ![] bcast_S_S4x1x1x28x28 main_cst_2
  let main_v11 : IVec S4x1x1x28x28 1 := cmpf .olt main_v9 main_v10
  let main_c_3 : IVec S_ 1 := constantI S_ 1 1#1
  let main_v12 : IVec S_ 1 := (fun x v => Host.reduce IntOp.andi x v reducesTo_S4x1x1x28x28_S_d0_1_2_3_4 h_S_) main_v11 main_c_3
  let main_v13 : IVec S_ 1 := andi main_v8 main_v12
  main_v13
-- ==== Kernel.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩
abbrev S56 : Shape := ⟨1, ![56]⟩
abbrev S56x1 : Shape := ⟨2, ![56, 1]⟩
abbrev S1x56 : Shape := ⟨2, ![1, 56]⟩
abbrev S56x56 : Shape := ⟨2, ![56, 56]⟩
abbrev S56x56x1 : Shape := ⟨3, ![56, 56, 1]⟩
abbrev S56x56x2 : Shape := ⟨3, ![56, 56, 2]⟩
abbrev S4x1x1x56x56 : Shape := ⟨5, ![4, 1, 1, 56, 56]⟩
abbrev S64x1 : Shape := ⟨2, ![64, 1]⟩
abbrev S64x2 : Shape := ⟨2, ![64, 2]⟩
abbrev S64x256x1x1 : Shape := ⟨4, ![64, 256, 1, 1]⟩
abbrev S64x1x56x56 : Shape := ⟨4, ![64, 1, 56, 56]⟩
abbrev S1x256x56x56 : Shape := ⟨4, ![1, 256, 56, 56]⟩
abbrev S1x256x1x1 : Shape := ⟨4, ![1, 256, 1, 1]⟩
abbrev S1x1x56x56 : Shape := ⟨4, ![1, 1, 56, 56]⟩

abbrev nBuf : Space → Nat
  | .hbm => 115
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S4x1x256x1x1, .f32⟩
  | .hbm, ⟨3, _⟩ => ⟨S4x1x1x28x28, .f32⟩
  | .hbm, ⟨4, _⟩ => ⟨S4x1x256x1x1, .f32⟩
  | .hbm, ⟨5, _⟩ => ⟨S4x1x256x1x1, .f32⟩
  | .hbm, ⟨6, _⟩ => ⟨S_, .f32⟩
  | .hbm, ⟨7, _⟩ => ⟨S4x1x256x1x1, .f32⟩
  | .hbm, ⟨8, _⟩ => ⟨S4x1x256x1x1, .f32⟩
  | .hbm, ⟨9, _⟩ => ⟨S_, .f32⟩
  | .hbm, ⟨10, _⟩ => ⟨S4x1x256x1x1, .f32⟩
  | .hbm, ⟨11, _⟩ => ⟨S4x1x256x1x1, .f32⟩
  | .hbm, ⟨12, _⟩ => ⟨S4x1x1x28x28, .f32⟩
  | .hbm, ⟨13, _⟩ => ⟨S4x1x1x28x28, .f32⟩
  | .hbm, ⟨14, _⟩ => ⟨S_, .f32⟩
  | .hbm, ⟨15, _⟩ => ⟨S4x1x1x28x28, .f32⟩
  | .hbm, ⟨16, _⟩ => ⟨S4x1x1x28x28, .f32⟩
  | .hbm, ⟨17, _⟩ => ⟨S_, .f32⟩
  | .hbm, ⟨18, _⟩ => ⟨S4x1x1x28x28, .f32⟩
  | .hbm, ⟨19, _⟩ => ⟨S4x1x1x28x28, .f32⟩
  | .hbm, ⟨20, _⟩ => ⟨S56, .i32⟩
  | .hbm, ⟨21, _⟩ => ⟨S_, .i32⟩
  | .hbm, ⟨22, _⟩ => ⟨S56, .i32⟩
  | .hbm, ⟨23, _⟩ => ⟨S56, .i32⟩
  | .hbm, ⟨24, _⟩ => ⟨S_, .i32⟩
  | .hbm, ⟨25, _⟩ => ⟨S_, .i32⟩
  | .hbm, ⟨26, _⟩ => ⟨S56, .i32⟩
  | .hbm, ⟨27, _⟩ => ⟨S56, .i32⟩
  | .hbm, ⟨28, _⟩ => ⟨S56, .i32⟩
  | .hbm, ⟨29, _⟩ => ⟨S_, .i32⟩
  | .hbm, ⟨30, _⟩ => ⟨S56, .i32⟩
  | .hbm, ⟨31, _⟩ => ⟨S56, .i1⟩
  | .hbm, ⟨32, _⟩ => ⟨S56, .i32⟩
  | .hbm, ⟨33, _⟩ => ⟨S56, .i32⟩
  | .hbm, ⟨34, _⟩ => ⟨S_, .i32⟩
  | .hbm, ⟨35, _⟩ => ⟨S56, .i32⟩
  | .hbm, ⟨36, _⟩ => ⟨S56, .i1⟩
  | .hbm, ⟨37, _⟩ => ⟨S56, .i1⟩
  | .hbm, ⟨38, _⟩ => ⟨S_, .i32⟩
  | .hbm, ⟨39, _⟩ => ⟨S56, .i32⟩
  | .hbm, ⟨40, _⟩ => ⟨S56, .i32⟩
  | .hbm, ⟨41, _⟩ => ⟨S56, .i32⟩
  | .hbm, ⟨42, _⟩ => ⟨S56, .i32⟩
  | .hbm, ⟨43, _⟩ => ⟨S_, .i32⟩
  | .hbm, ⟨44, _⟩ => ⟨S56, .i32⟩
  | .hbm, ⟨45, _⟩ => ⟨S56, .i32⟩
  | .hbm, ⟨46, _⟩ => ⟨S_, .i32⟩
  | .hbm, ⟨47, _⟩ => ⟨S_, .i32⟩
  | .hbm, ⟨48, _⟩ => ⟨S56, .i32⟩
  | .hbm, ⟨49, _⟩ => ⟨S56, .i32⟩
  | .hbm, ⟨50, _⟩ => ⟨S56, .i32⟩
  | .hbm, ⟨51, _⟩ => ⟨S_, .i32⟩
  | .hbm, ⟨52, _⟩ => ⟨S56, .i32⟩
  | .hbm, ⟨53, _⟩ => ⟨S56, .i1⟩
  | .hbm, ⟨54, _⟩ => ⟨S56, .i32⟩
  | .hbm, ⟨55, _⟩ => ⟨S56, .i32⟩
  | .hbm, ⟨56, _⟩ => ⟨S_, .i32⟩
  | .hbm, ⟨57, _⟩ => ⟨S56, .i32⟩
  | .hbm, ⟨58, _⟩ => ⟨S56, .i1⟩
  | .hbm, ⟨59, _⟩ => ⟨S56, .i1⟩
  | .hbm, ⟨60, _⟩ => ⟨S_, .i32⟩
  | .hbm, ⟨61, _⟩ => ⟨S56, .i32⟩
  | .hbm, ⟨62, _⟩ => ⟨S56, .i32⟩
  | .hbm, ⟨63, _⟩ => ⟨S56, .i32⟩
  | .hbm, ⟨64, _⟩ => ⟨S56x1, .i32⟩
  | .hbm, ⟨65, _⟩ => ⟨S1x56, .i32⟩
  | .hbm, ⟨66, _⟩ => ⟨S_, .i32⟩
  | .hbm, ⟨67, _⟩ => ⟨S56x1, .i32⟩
  | .hbm, ⟨68, _⟩ => ⟨S56x1, .i1⟩
  | .hbm, ⟨69, _⟩ => ⟨S_, .i32⟩
  | .hbm, ⟨70, _⟩ => ⟨S56x1, .i32⟩
  | .hbm, ⟨71, _⟩ => ⟨S56x1, .i32⟩
  | .hbm, ⟨72, _⟩ => ⟨S56x1, .i32⟩
  | .hbm, ⟨73, _⟩ => ⟨S_, .i32⟩
  | .hbm, ⟨74, _⟩ => ⟨S1x56, .i32⟩
  | .hbm, ⟨75, _⟩ => ⟨S1x56, .i1⟩
  | .hbm, ⟨76, _⟩ => ⟨S_, .i32⟩
  | .hbm, ⟨77, _⟩ => ⟨S1x56, .i32⟩
  | .hbm, ⟨78, _⟩ => ⟨S1x56, .i32⟩
  | .hbm, ⟨79, _⟩ => ⟨S1x56, .i32⟩
  | .hbm, ⟨80, _⟩ => ⟨S56x56, .i32⟩
  | .hbm, ⟨81, _⟩ => ⟨S56x56, .i32⟩
  | .hbm, ⟨82, _⟩ => ⟨S56x56x1, .i32⟩
  | .hbm, ⟨83, _⟩ => ⟨S56x56x1, .i32⟩
  | .hbm, ⟨84, _⟩ => ⟨S56x56x2, .i32⟩
  | .hbm, ⟨85, _⟩ => ⟨S4x1x1x56x56, .f32⟩
  | .hbm, ⟨86, _⟩ => ⟨S_, .i32⟩
  | .hbm, ⟨87, _⟩ => ⟨S64, .i32⟩
  | .hbm, ⟨88, _⟩ => ⟨S64, .i1⟩
  | .hbm, ⟨89, _⟩ => ⟨S_, .i32⟩
  | .hbm, ⟨90, _⟩ => ⟨S64, .i32⟩
  | .hbm, ⟨91, _⟩ => ⟨S64, .i32⟩
  | .hbm, ⟨92, _⟩ => ⟨S64, .i32⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x1, .i32⟩
  | .hbm, ⟨98, _⟩ => ⟨S64x2, .i32⟩
  | .hbm, ⟨99, _⟩ => ⟨S64x256x1x1, .f32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S_, .i32⟩
  | .hbm, ⟨108, _⟩ => ⟨S64, .i32⟩
  | .hbm, ⟨109, _⟩ => ⟨S64, .i32⟩
  | .hbm, ⟨110, _⟩ => ⟨S64x1, .i32⟩
  | .hbm, ⟨111, _⟩ => ⟨S64x1, .i32⟩
  | .hbm, ⟨112, _⟩ => ⟨S64x2, .i32⟩
  | .hbm, ⟨113, _⟩ => ⟨S64x1x56x56, .f32⟩
  | .hbm, ⟨114, _⟩ => ⟨S64x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S1x256x1x1, .f32⟩
  | .local _ .vmem, ⟨3, _⟩ => ⟨S1x256x1x1, .f32⟩
  | .local _ .vmem, ⟨4, _⟩ => ⟨S1x1x56x56, .f32⟩
  | .local _ .vmem, ⟨5, _⟩ => ⟨S1x1x56x56, .f32⟩
  | .local _ .vmem, ⟨6, _⟩ => ⟨S1x256x56x56, .f32⟩
  | .local _ .vmem, ⟨7, _⟩ => ⟨S1x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_c_6 : Ref sig .tc := ⟨.hbm, 66, rfl⟩
abbrev main_v22 : Ref sig .tc := ⟨.hbm, 67, rfl⟩
abbrev main_v23 : Ref sig .tc := ⟨.hbm, 68, rfl⟩
abbrev main_c_7 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_8 : Ref sig .tc := ⟨.hbm, 73, rfl⟩
abbrev main_v27 : Ref sig .tc := ⟨.hbm, 74, rfl⟩
abbrev main_v28 : Ref sig .tc := ⟨.hbm, 75, rfl⟩
abbrev main_c_9 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_10 : Ref sig .tc := ⟨.hbm, 86, rfl⟩
abbrev main_v38 : Ref sig .tc := ⟨.hbm, 87, rfl⟩
abbrev main_v39 : Ref sig .tc := ⟨.hbm, 88, rfl⟩
abbrev main_c_11 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_12 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_13 : Ref sig .tc := ⟨.hbm, 100, rfl⟩
abbrev main_v49 : Ref sig .tc := ⟨.hbm, 101, rfl⟩
abbrev main_v50 : Ref sig .tc := ⟨.hbm, 102, rfl⟩
abbrev main_c_14 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_15 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4x1x256x1x1 : S_.BroadcastsInDim S4x1x256x1x1 (![] : Fin 0 → Fin S4x1x256x1x1.rank)
  bcast_S_S4x1x1x28x28 : S_.BroadcastsInDim S4x1x1x28x28 (![] : Fin 0 → Fin S4x1x1x28x28.rank)
  bcast_S_S56 : S_.BroadcastsInDim S56 (![] : Fin 0 → Fin S56.rank)
  bcast_S56_S56x1_0 : S56.BroadcastsInDim S56x1 (![0] : Fin 1 → Fin S56x1.rank)
  bcast_S56_S1x56_1 : S56.BroadcastsInDim S1x56 (![1] : Fin 1 → Fin S1x56.rank)
  bcast_S_S56x1 : S_.BroadcastsInDim S56x1 (![] : Fin 0 → Fin S56x1.rank)
  bcast_S_S1x56 : S_.BroadcastsInDim S1x56 (![] : Fin 0 → Fin S1x56.rank)
  bcast_S56x1_S56x56_0_1 : S56x1.BroadcastsInDim S56x56 (![0, 1] : Fin 2 → Fin S56x56.rank)
  bcast_S1x56_S56x56_0_1 : S1x56.BroadcastsInDim S56x56 (![0, 1] : Fin 2 → Fin S56x56.rank)
  bcast_S56x56_S56x56x1_0_1 : S56x56.BroadcastsInDim S56x56x1 (![0, 1] : Fin 2 → Fin S56x56x1.rank)
  concatenates_S56x56x1_S56x56x1_S56x56x2_d2 : Shape.Concatenates [S56x56x1, S56x56x1] S56x56x2 2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  inb_S1x256x56x56_S1x256x56x56_0_0_0_0 : ∀ a, (![0, 0, 0, 0] : Fin 4 → Nat) a + S1x256x56x56.size a ≤ S1x256x56x56.size a
  h_S1x256x56x56 : 0 < S1x256x56x56.numel
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  broadcasts_S1x256x1x1_S1x256x56x56 : S1x256x1x1.Broadcasts S1x256x56x56
  inb_S1x1x56x56_S1x1x56x56_0_0_0_0 : ∀ a, (![0, 0, 0, 0] : Fin 4 → Nat) a + S1x1x56x56.size a ≤ S1x1x56x56.size a
  h_S1x1x56x56 : 0 < S1x1x56x56.numel
  shapeCasts_S1x1x56x56_S1x1x56x56 : S1x1x56x56.ShapeCasts S1x1x56x56
  broadcasts_S1x1x56x56_S1x256x56x56 : S1x1x56x56.Broadcasts S1x256x56x56
  gather_S4x1x1x28x28_S56x56x2_S4x1x1x56x56_012_34_n_n_34_2_41111_wf : GatherDims.WF S4x1x1x28x28 S56x56x2 S4x1x1x56x56 [0, 1, 2] [3, 4] [] [3, 4] [] 2 ![4, 1, 1, 1, 1]
  gather_S4x1x256x1x1_S64x2_S64x256x1x1_123_01_n_n_01_1_1125611_wf : GatherDims.WF S4x1x256x1x1 S64x2 S64x256x1x1 [1, 2, 3] [0, 1] [] [0, 1] [] 1 ![1, 1, 256, 1, 1]
  gather_S4x1x1x56x56_S64x2_S64x1x56x56_123_01_n_n_01_1_1115656_wf : GatherDims.WF S4x1x1x56x56 S64x2 S64x1x56x56 [1, 2, 3] [0, 1] [] [0, 1] [] 1 ![1, 1, 1, 56, 56]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S64x256x56x56.size a
  hwx0_0 : ∀ i : grid0.Coords, EltTy.bits .f32 = 32 ∨ (Rect.block (s := S64x256x56x56) S1x256x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S64x256x1x1.size a
  hwx0_1 : ∀ i : grid0.Coords, EltTy.bits .f32 = 32 ∨ (Rect.block (s := S64x256x1x1) S1x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x56x56.size a ≤ S64x1x56x56.size a
  hwx0_2 : ∀ i : grid0.Coords, EltTy.bits .f32 = 32 ∨ (Rect.block (s := S64x1x56x56) S1x1x56x56.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x56x56.size a ≤ S64x256x56x56.size a
  hwx0_3 : ∀ i : grid0.Coords, EltTy.bits .f32 = 32 ∨ (Rect.block (s := S64x256x56x56) S1x256x56x56.size (cc0_transform_3 i) (hinb0_3 i)).WholeWords (EltTy.packing .f32)

variable [Facts₀]

def gather_S4x1x1x28x28_S56x56x2_S4x1x1x56x56_012_34_n_n_34_2_41111 : GatherDims S4x1x1x28x28 S56x56x2 S4x1x1x56x56 where
  offsetDims := [0, 1, 2]
  collapsedSliceDims := [3, 4]
  operandBatchingDims := []
  startIndicesBatchingDims := []
  startIndexMap := [3, 4]
  indexVectorDim := 2
  sliceSizes := ![4, 1, 1, 1, 1]
  wf := gather_S4x1x1x28x28_S56x56x2_S4x1x1x56x56_012_34_n_n_34_2_41111_wf
def gather_S4x1x256x1x1_S64x2_S64x256x1x1_123_01_n_n_01_1_1125611 : GatherDims S4x1x256x1x1 S64x2 S64x256x1x1 where
  offsetDims := [1, 2, 3]
  collapsedSliceDims := [0, 1]
  operandBatchingDims := []
  startIndicesBatchingDims := []
  startIndexMap := [0, 1]
  indexVectorDim := 1
  sliceSizes := ![1, 1, 256, 1, 1]
  wf := gather_S4x1x256x1x1_S64x2_S64x256x1x1_123_01_n_n_01_1_1125611_wf
def gather_S4x1x1x56x56_S64x2_S64x1x56x56_123_01_n_n_01_1_1115656 : GatherDims S4x1x1x56x56 S64x2 S64x1x56x56 where
  offsetDims := [1, 2, 3]
  collapsedSliceDims := [0, 1]
  operandBatchingDims := []
  startIndicesBatchingDims := []
  startIndexMap := [0, 1]
  indexVectorDim := 1
  sliceSizes := ![1, 1, 1, 56, 56]
  wf := gather_S4x1x1x56x56_S64x2_S64x1x56x56_123_01_n_n_01_1_1115656_wf

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1x256x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x1x56x56.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x256x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S64 : Shape := ⟨1, ![64]⟩
abbrev S4x1x256x1x1 : Shape := ⟨5, ![4, 1, 256, 1, 1]⟩
abbrev S4x1x1x28x28 : Shape := ⟨5, ![4, 1, 1, 28, 28]⟩
abbrev S_ : Shape := ⟨0, ![]⟩
abbrev S56 : Shape := ⟨1, ![56]⟩
abbrev S56x1 : Shape := ⟨2, ![56, 1]⟩
abbrev S1x56 : Shape := ⟨2, ![1, 56]⟩
abbrev S56x56 : Shape := ⟨2, ![56, 56]⟩
abbrev S56x56x1 : Shape := ⟨3, ![56, 56, 1]⟩
abbrev S56x56x2 : Shape := ⟨3, ![56, 56, 2]⟩
abbrev S4x1x1x56x56 : Shape := ⟨5, ![4, 1, 1, 56, 56]⟩
abbrev S64x1 : Shape := ⟨2, ![64, 1]⟩
abbrev S64x2 : Shape := ⟨2, ![64, 2]⟩
abbrev S64x256x1x1 : Shape := ⟨4, ![64, 256, 1, 1]⟩
abbrev S64x1x56x56 : Shape := ⟨4, ![64, 1, 56, 56]⟩

abbrev nBuf : Space → Nat
  | .hbm => 118
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64, .i32⟩
  | .hbm, ⟨2, _⟩ => ⟨S4x1x256x1x1, .f32⟩
  | .hbm, ⟨3, _⟩ => ⟨S4x1x1x28x28, .f32⟩
  | .hbm, ⟨4, _⟩ => ⟨S4x1x256x1x1, .f32⟩
  | .hbm, ⟨5, _⟩ => ⟨S4x1x256x1x1, .f32⟩
  | .hbm, ⟨6, _⟩ => ⟨S_, .f32⟩
  | .hbm, ⟨7, _⟩ => ⟨S4x1x256x1x1, .f32⟩
  | .hbm, ⟨8, _⟩ => ⟨S4x1x256x1x1, .f32⟩
  | .hbm, ⟨9, _⟩ => ⟨S_, .f32⟩
  | .hbm, ⟨10, _⟩ => ⟨S4x1x256x1x1, .f32⟩
  | .hbm, ⟨11, _⟩ => ⟨S4x1x256x1x1, .f32⟩
  | .hbm, ⟨12, _⟩ => ⟨S4x1x1x28x28, .f32⟩
  | .hbm, ⟨13, _⟩ => ⟨S4x1x1x28x28, .f32⟩
  | .hbm, ⟨14, _⟩ => ⟨S_, .f32⟩
  | .hbm, ⟨15, _⟩ => ⟨S4x1x1x28x28, .f32⟩
  | .hbm, ⟨16, _⟩ => ⟨S4x1x1x28x28, .f32⟩
  | .hbm, ⟨17, _⟩ => ⟨S_, .f32⟩
  | .hbm, ⟨18, _⟩ => ⟨S4x1x1x28x28, .f32⟩
  | .hbm, ⟨19, _⟩ => ⟨S4x1x1x28x28, .f32⟩
  | .hbm, ⟨20, _⟩ => ⟨S56, .i32⟩
  | .hbm, ⟨21, _⟩ => ⟨S_, .i32⟩
  | .hbm, ⟨22, _⟩ => ⟨S56, .i32⟩
  | .hbm, ⟨23, _⟩ => ⟨S56, .i32⟩
  | .hbm, ⟨24, _⟩ => ⟨S_, .i32⟩
  | .hbm, ⟨25, _⟩ => ⟨S_, .i32⟩
  | .hbm, ⟨26, _⟩ => ⟨S56, .i32⟩
  | .hbm, ⟨27, _⟩ => ⟨S56, .i32⟩
  | .hbm, ⟨28, _⟩ => ⟨S56, .i32⟩
  | .hbm, ⟨29, _⟩ => ⟨S_, .i32⟩
  | .hbm, ⟨30, _⟩ => ⟨S56, .i32⟩
  | .hbm, ⟨31, _⟩ => ⟨S56, .i1⟩
  | .hbm, ⟨32, _⟩ => ⟨S56, .i32⟩
  | .hbm, ⟨33, _⟩ => ⟨S56, .i32⟩
  | .hbm, ⟨34, _⟩ => ⟨S_, .i32⟩
  | .hbm, ⟨35, _⟩ => ⟨S56, .i32⟩
  | .hbm, ⟨36, _⟩ => ⟨S56, .i1⟩
  | .hbm, ⟨37, _⟩ => ⟨S56, .i1⟩
  | .hbm, ⟨38, _⟩ => ⟨S_, .i32⟩
  | .hbm, ⟨39, _⟩ => ⟨S56, .i32⟩
  | .hbm, ⟨40, _⟩ => ⟨S56, .i32⟩
  | .hbm, ⟨41, _⟩ => ⟨S56, .i32⟩
  | .hbm, ⟨42, _⟩ => ⟨S56, .i32⟩
  | .hbm, ⟨43, _⟩ => ⟨S_, .i32⟩
  | .hbm, ⟨44, _⟩ => ⟨S56, .i32⟩
  | .hbm, ⟨45, _⟩ => ⟨S56, .i32⟩
  | .hbm, ⟨46, _⟩ => ⟨S_, .i32⟩
  | .hbm, ⟨47, _⟩ => ⟨S_, .i32⟩
  | .hbm, ⟨48, _⟩ => ⟨S56, .i32⟩
  | .hbm, ⟨49, _⟩ => ⟨S56, .i32⟩
  | .hbm, ⟨50, _⟩ => ⟨S56, .i32⟩
  | .hbm, ⟨51, _⟩ => ⟨S_, .i32⟩
  | .hbm, ⟨52, _⟩ => ⟨S56, .i32⟩
  | .hbm, ⟨53, _⟩ => ⟨S56, .i1⟩
  | .hbm, ⟨54, _⟩ => ⟨S56, .i32⟩
  | .hbm, ⟨55, _⟩ => ⟨S56, .i32⟩
  | .hbm, ⟨56, _⟩ => ⟨S_, .i32⟩
  | .hbm, ⟨57, _⟩ => ⟨S56, .i32⟩
  | .hbm, ⟨58, _⟩ => ⟨S56, .i1⟩
  | .hbm, ⟨59, _⟩ => ⟨S56, .i1⟩
  | .hbm, ⟨60, _⟩ => ⟨S_, .i32⟩
  | .hbm, ⟨61, _⟩ => ⟨S56, .i32⟩
  | .hbm, ⟨62, _⟩ => ⟨S56, .i32⟩
  | .hbm, ⟨63, _⟩ => ⟨S56, .i32⟩
  | .hbm, ⟨64, _⟩ => ⟨S56x1, .i32⟩
  | .hbm, ⟨65, _⟩ => ⟨S1x56, .i32⟩
  | .hbm, ⟨66, _⟩ => ⟨S_, .i32⟩
  | .hbm, ⟨67, _⟩ => ⟨S56x1, .i32⟩
  | .hbm, ⟨68, _⟩ => ⟨S56x1, .i1⟩
  | .hbm, ⟨69, _⟩ => ⟨S_, .i32⟩
  | .hbm, ⟨70, _⟩ => ⟨S56x1, .i32⟩
  | .hbm, ⟨71, _⟩ => ⟨S56x1, .i32⟩
  | .hbm, ⟨72, _⟩ => ⟨S56x1, .i32⟩
  | .hbm, ⟨73, _⟩ => ⟨S_, .i32⟩
  | .hbm, ⟨74, _⟩ => ⟨S1x56, .i32⟩
  | .hbm, ⟨75, _⟩ => ⟨S1x56, .i1⟩
  | .hbm, ⟨76, _⟩ => ⟨S_, .i32⟩
  | .hbm, ⟨77, _⟩ => ⟨S1x56, .i32⟩
  | .hbm, ⟨78, _⟩ => ⟨S1x56, .i32⟩
  | .hbm, ⟨79, _⟩ => ⟨S1x56, .i32⟩
  | .hbm, ⟨80, _⟩ => ⟨S56x56, .i32⟩
  | .hbm, ⟨81, _⟩ => ⟨S56x56, .i32⟩
  | .hbm, ⟨82, _⟩ => ⟨S56x56x1, .i32⟩
  | .hbm, ⟨83, _⟩ => ⟨S56x56x1, .i32⟩
  | .hbm, ⟨84, _⟩ => ⟨S56x56x2, .i32⟩
  | .hbm, ⟨85, _⟩ => ⟨S4x1x1x56x56, .f32⟩
  | .hbm, ⟨86, _⟩ => ⟨S_, .i32⟩
  | .hbm, ⟨87, _⟩ => ⟨S64, .i32⟩
  | .hbm, ⟨88, _⟩ => ⟨S64, .i1⟩
  | .hbm, ⟨89, _⟩ => ⟨S_, .i32⟩
  | .hbm, ⟨90, _⟩ => ⟨S64, .i32⟩
  | .hbm, ⟨91, _⟩ => ⟨S64, .i32⟩
  | .hbm, ⟨92, _⟩ => ⟨S64, .i32⟩
  | .hbm, ⟨93, _⟩ => ⟨S_, .i32⟩
  | .hbm, ⟨94, _⟩ => ⟨S64, .i32⟩
  | .hbm, ⟨95, _⟩ => ⟨S64, .i32⟩
  | .hbm, ⟨96, _⟩ => ⟨S64x1, .i32⟩
  | .hbm, ⟨97, _⟩ => ⟨S64x1, .i32⟩
  | .hbm, ⟨98, _⟩ => ⟨S64x2, .i32⟩
  | .hbm, ⟨99, _⟩ => ⟨S64x256x1x1, .f32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S_, .i32⟩
  | .hbm, ⟨108, _⟩ => ⟨S64, .i32⟩
  | .hbm, ⟨109, _⟩ => ⟨S64, .i32⟩
  | .hbm, ⟨110, _⟩ => ⟨S64x1, .i32⟩
  | .hbm, ⟨111, _⟩ => ⟨S64x1, .i32⟩
  | .hbm, ⟨112, _⟩ => ⟨S64x2, .i32⟩
  | .hbm, ⟨113, _⟩ => ⟨S64x1x56x56, .f32⟩
  | .hbm, ⟨114, _⟩ => ⟨S64x256x56x56, .f32⟩
  | .hbm, ⟨115, _⟩ => ⟨S64x256x56x56, .f32⟩
  | .hbm, ⟨116, _⟩ => ⟨S64x256x56x56, .f32⟩
  | .hbm, ⟨117, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_c_6 : Ref sig .tc := ⟨.hbm, 66, rfl⟩
abbrev main_v22 : Ref sig .tc := ⟨.hbm, 67, rfl⟩
abbrev main_v23 : Ref sig .tc := ⟨.hbm, 68, rfl⟩
abbrev main_c_7 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_8 : Ref sig .tc := ⟨.hbm, 73, rfl⟩
abbrev main_v27 : Ref sig .tc := ⟨.hbm, 74, rfl⟩
abbrev main_v28 : Ref sig .tc := ⟨.hbm, 75, rfl⟩
abbrev main_c_9 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_10 : Ref sig .tc := ⟨.hbm, 86, rfl⟩
abbrev main_v38 : Ref sig .tc := ⟨.hbm, 87, rfl⟩
abbrev main_v39 : Ref sig .tc := ⟨.hbm, 88, rfl⟩
abbrev main_c_11 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_c_12 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_c_13 : Ref sig .tc := ⟨.hbm, 100, rfl⟩
abbrev main_v49 : Ref sig .tc := ⟨.hbm, 101, rfl⟩
abbrev main_v50 : Ref sig .tc := ⟨.hbm, 102, rfl⟩
abbrev main_c_14 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_c_15 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]

class Facts₀ : Prop where
  bcast_S_S4x1x256x1x1 : S_.BroadcastsInDim S4x1x256x1x1 (![] : Fin 0 → Fin S4x1x256x1x1.rank)
  bcast_S_S4x1x1x28x28 : S_.BroadcastsInDim S4x1x1x28x28 (![] : Fin 0 → Fin S4x1x1x28x28.rank)
  bcast_S_S56 : S_.BroadcastsInDim S56 (![] : Fin 0 → Fin S56.rank)
  bcast_S56_S56x1_0 : S56.BroadcastsInDim S56x1 (![0] : Fin 1 → Fin S56x1.rank)
  bcast_S56_S1x56_1 : S56.BroadcastsInDim S1x56 (![1] : Fin 1 → Fin S1x56.rank)
  bcast_S_S56x1 : S_.BroadcastsInDim S56x1 (![] : Fin 0 → Fin S56x1.rank)
  bcast_S_S1x56 : S_.BroadcastsInDim S1x56 (![] : Fin 0 → Fin S1x56.rank)
  bcast_S56x1_S56x56_0_1 : S56x1.BroadcastsInDim S56x56 (![0, 1] : Fin 2 → Fin S56x56.rank)
  bcast_S1x56_S56x56_0_1 : S1x56.BroadcastsInDim S56x56 (![0, 1] : Fin 2 → Fin S56x56.rank)
  bcast_S56x56_S56x56x1_0_1 : S56x56.BroadcastsInDim S56x56x1 (![0, 1] : Fin 2 → Fin S56x56x1.rank)
  concatenates_S56x56x1_S56x56x1_S56x56x2_d2 : Shape.Concatenates [S56x56x1, S56x56x1] S56x56x2 2
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  bcast_S64x256x1x1_S64x256x56x56_0_1_2_3 : S64x256x1x1.BroadcastsInDim S64x256x56x56 (![0, 1, 2, 3] : Fin 4 → Fin S64x256x56x56.rank)
  bcast_S64x1x56x56_S64x256x56x56_0_1_2_3 : S64x1x56x56.BroadcastsInDim S64x256x56x56 (![0, 1, 2, 3] : Fin 4 → Fin S64x256x56x56.rank)
  gather_S4x1x1x28x28_S56x56x2_S4x1x1x56x56_012_34_n_n_34_2_41111_wf : GatherDims.WF S4x1x1x28x28 S56x56x2 S4x1x1x56x56 [0, 1, 2] [3, 4] [] [3, 4] [] 2 ![4, 1, 1, 1, 1]
  gather_S4x1x256x1x1_S64x2_S64x256x1x1_123_01_n_n_01_1_1125611_wf : GatherDims.WF S4x1x256x1x1 S64x2 S64x256x1x1 [1, 2, 3] [0, 1] [] [0, 1] [] 1 ![1, 1, 256, 1, 1]
  gather_S4x1x1x56x56_S64x2_S64x1x56x56_123_01_n_n_01_1_1115656_wf : GatherDims.WF S4x1x1x56x56 S64x2 S64x1x56x56 [1, 2, 3] [0, 1] [] [0, 1] [] 1 ![1, 1, 1, 56, 56]

variable [Facts₀]

def gather_S4x1x1x28x28_S56x56x2_S4x1x1x56x56_012_34_n_n_34_2_41111 : GatherDims S4x1x1x28x28 S56x56x2 S4x1x1x56x56 where
  offsetDims := [0, 1, 2]
  collapsedSliceDims := [3, 4]
  operandBatchingDims := []
  startIndicesBatchingDims := []
  startIndexMap := [3, 4]
  indexVectorDim := 2
  sliceSizes := ![4, 1, 1, 1, 1]
  wf := gather_S4x1x1x28x28_S56x56x2_S4x1x1x56x56_012_34_n_n_34_2_41111_wf
def gather_S4x1x256x1x1_S64x2_S64x256x1x1_123_01_n_n_01_1_1125611 : GatherDims S4x1x256x1x1 S64x2 S64x256x1x1 where
  offsetDims := [1, 2, 3]
  collapsedSliceDims := [0, 1]
  operandBatchingDims := []
  startIndicesBatchingDims := []
  startIndexMap := [0, 1]
  indexVectorDim := 1
  sliceSizes := ![1, 1, 256, 1, 1]
  wf := gather_S4x1x256x1x1_S64x2_S64x256x1x1_123_01_n_n_01_1_1125611_wf
def gather_S4x1x1x56x56_S64x2_S64x1x56x56_123_01_n_n_01_1_1115656 : GatherDims S4x1x1x56x56 S64x2 S64x1x56x56 where
  offsetDims := [1, 2, 3]
  collapsedSliceDims := [0, 1]
  operandBatchingDims := []
  startIndicesBatchingDims := []
  startIndexMap := [0, 1]
  indexVectorDim := 1
  sliceSizes := ![1, 1, 1, 56, 56]
  wf := gather_S4x1x1x56x56_S64x2_S64x1x56x56_123_01_n_n_01_1_1115656_wf

class Facts : Prop extends Facts₀ where

variable [Facts]
-- ==== Proof.KernelArray.lean ====
/-
  The kernel's result array as one function of the arrays its region finds.

  The grid has 64 points; point `t` works on sample `t`: it reads block `t` (all channels, all positions) of `x`,
  block `t` (all channels) of the per-sample channel gate and block `t` (all positions) of the per-sample spatial
  gate, and writes block `t` of the result. Inside a block, entry (c, h, w) of what is written is
  x(c, h, w) · gc(c) · gs(h, w). So entry (n, c, h, w) of the array after the run is
  x(n, c, h, w) · gc(n, c, 0, 0) · gs(n, 0, h, w): the 64 blocks are disjoint, each the restriction of this one
  function, and together they cover the array.
-/
import proofs.«118643_j45870250721474_2_alg».proof.Proof.Gen.KernelIdeal.Value

noncomputable section

namespace Cert.KernelIdeal.Arr

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0, 0, 0] : Fin 4 → Nat) = fun _ => 0 := funext fun a => by fin_cases a <;> rfl

/-- Entry (n, c, h, w) reads the channel gate at (n, c, 0, 0). -/
abbrev chanIdx (i : S64x256x56x56.Idx) : S64x256x1x1.Idx := fun a => match a with
  | ⟨0, _⟩ => ⟨(i 0).val, by have h : (i 0).val < 64 := (i 0).isLt; show (i 0).val < 64; omega⟩
  | ⟨1, _⟩ => ⟨(i 1).val, by have h : (i 1).val < 256 := (i 1).isLt; show (i 1).val < 256; omega⟩
  | ⟨2, _⟩ => ⟨0, by show 0 < 1; omega⟩
  | ⟨3, _⟩ => ⟨0, by show 0 < 1; omega⟩

/-- Entry (n, c, h, w) reads the spatial gate at (n, 0, h, w). -/
abbrev spatIdx (i : S64x256x56x56.Idx) : S64x1x56x56.Idx := fun a => match a with
  | ⟨0, _⟩ => ⟨(i 0).val, by have h : (i 0).val < 64 := (i 0).isLt; show (i 0).val < 64; omega⟩
  | ⟨1, _⟩ => ⟨0, by show 0 < 1; omega⟩
  | ⟨2, _⟩ => ⟨(i 2).val, by have h : (i 2).val < 56 := (i 2).isLt; show (i 2).val < 56; omega⟩
  | ⟨3, _⟩ => ⟨(i 3).val, by have h : (i 3).val < 56 := (i 3).isLt; show (i 3).val < 56; omega⟩

/-- The gated product, entry by entry: x(n, c, h, w) · gc(n, c, 0, 0) · gs(n, 0, h, w). -/
abbrev gatedAt (x : S64x256x56x56.Idx → Elt F .f32) (gc : S64x256x1x1.Idx → Elt F .f32) (gs : S64x1x56x56.Idx → Elt F .f32) :
    S64x256x56x56.Idx → Elt F .f32 :=
  fun i => FloatOps.mulf (FloatOps.mulf (x i) (gc (chanIdx i))) (gs (spatIdx i))

/-- The four index maps over the 64 grid points: every window is at block `t` along the sample axis and at block 0
    along the others. -/
theorem idx_facts : ∀ t : Fin cfg0.N,
    win0_3.index t (0 : Fin 4) ≤ 63
    ∧ win0_0.index t (0 : Fin 4) = win0_3.index t (0 : Fin 4)
    ∧ win0_1.index t (0 : Fin 4) = win0_3.index t (0 : Fin 4)
    ∧ win0_2.index t (0 : Fin 4) = win0_3.index t (0 : Fin 4)
    ∧ win0_0.index t (1 : Fin 4) = 0 ∧ win0_0.index t (2 : Fin 4) = 0 ∧ win0_0.index t (3 : Fin 4) = 0
    ∧ win0_1.index t (1 : Fin 4) = 0 ∧ win0_1.index t (2 : Fin 4) = 0 ∧ win0_1.index t (3 : Fin 4) = 0
    ∧ win0_2.index t (1 : Fin 4) = 0 ∧ win0_2.index t (2 : Fin 4) = 0 ∧ win0_2.index t (3 : Fin 4) = 0
    ∧ win0_3.index t (1 : Fin 4) = 0 ∧ win0_3.index t (2 : Fin 4) = 0 ∧ win0_3.index t (3 : Fin 4) = 0 :=
  (by decide +kernel : ∀ t : Fin grid0.N, _)

/-- Every sample's block is some point's. -/
theorem idx_onto : ∀ q0 : Fin 64, ∃ t : Fin cfg0.N, win0_3.index t = ![q0.val, 0, 0, 0] :=
  (by decide +kernel : ∀ q0 : Fin 64, ∃ t : Fin grid0.N, win0_3.index t = ![q0.val, 0, 0, 0])

/-- For ANY three arrays in the windows' places: the body's result on their blocks at point `t` is block `t` of
    their gated product. (Stated over variable arrays, so that nothing here looks inside what the region finds.) -/
theorem block_eq (A0 : S64x256x56x56.Idx → Elt F .f32) (A1 : S64x256x1x1.Idx → Elt F .f32)
    (A2 : S64x1x56x56.Idx → Elt F .f32) (t : Fin cfg0.N) :
    (cfg0.win 3).cut (grid0.coords t)
        (out0_3 (((cfg0.win 0).blk t).view.read (Elt F) A0) (((cfg0.win 1).blk t).view.read (Elt F) A1)
          (((cfg0.win 2).blk t).view.read (Elt F) A2))
      = ((cfg0.win 3).blk t).view.read (Elt F) (gatedAt A0 A1 A2) := by
  unfold out0_3
  simp only [View.ld_unit_zero (S := S1x256x56x56) hz, View.ld_unit_zero (S := S1x256x1x1) hz,
    View.ld_unit_zero (S := S1x1x56x56) hz]
  obtain ⟨b0, e0, e1, e2, a1, a2, a3, c1, c2, c3, s1, s2, s3, o1, o2, o3⟩ := idx_facts t
  refine funext fun (j : S1x256x56x56.Idx) => ?_
  refine (Value.canon3_eq (((cfg0.win 0).blk t).view.read (Elt F) A0) (((cfg0.win 1).blk t).view.read (Elt F) A1)
    (((cfg0.win 2).blk t).view.read (Elt F) A2) j).trans ?_
  show FloatOps.mulf (FloatOps.mulf (A0 (((cfg0.win 0).blk t).view.emb (Value.ix3_0 j)))
        (A1 (((cfg0.win 1).blk t).view.emb (Value.ix3_1 j))))
        (A2 (((cfg0.win 2).blk t).view.emb (Value.ix3_2 j)))
      = FloatOps.mulf (FloatOps.mulf (A0 (((cfg0.win 3).blk t).view.emb j))
        (A1 (chanIdx (((cfg0.win 3).blk t).view.emb j))))
        (A2 (spatIdx (((cfg0.win 3).blk t).view.emb j)))
  have hj0 : (j 0).val < 1 := (j 0).isLt
  have h0 : ((cfg0.win 0).blk t).view.emb (Value.ix3_0 j) = ((cfg0.win 3).blk t).view.emb j := by
    funext a; apply Fin.ext
    match a with
    | ⟨0, _⟩ => show win0_0.index t (0 : Fin 4) * 1 + 1 * 0 = win0_3.index t (0 : Fin 4) * 1 + 1 * (j 0).val; omega
    | ⟨1, _⟩ => show win0_0.index t (1 : Fin 4) * 256 + 1 * (j 1).val = win0_3.index t (1 : Fin 4) * 256 + 1 * (j 1).val; omega
    | ⟨2, _⟩ => show win0_0.index t (2 : Fin 4) * 56 + 1 * (j 2).val = win0_3.index t (2 : Fin 4) * 56 + 1 * (j 2).val; omega
    | ⟨3, _⟩ => show win0_0.index t (3 : Fin 4) * 56 + 1 * (j 3).val = win0_3.index t (3 : Fin 4) * 56 + 1 * (j 3).val; omega
  have h1 : ((cfg0.win 1).blk t).view.emb (Value.ix3_1 j) = chanIdx (((cfg0.win 3).blk t).view.emb j) := by
    funext a; apply Fin.ext
    match a with
    | ⟨0, _⟩ => show win0_1.index t (0 : Fin 4) * 1 + 1 * 0 = win0_3.index t (0 : Fin 4) * 1 + 1 * (j 0).val; omega
    | ⟨1, _⟩ => show win0_1.index t (1 : Fin 4) * 256 + 1 * (j 1).val = win0_3.index t (1 : Fin 4) * 256 + 1 * (j 1).val; omega
    | ⟨2, _⟩ => show win0_1.index t (2 : Fin 4) * 1 + 1 * 0 = 0; omega
    | ⟨3, _⟩ => show win0_1.index t (3 : Fin 4) * 1 + 1 * 0 = 0; omega
  have h2 : ((cfg0.win 2).blk t).view.emb (Value.ix3_2 j) = spatIdx (((cfg0.win 3).blk t).view.emb j) := by
    funext a; apply Fin.ext
    match a with
    | ⟨0, _⟩ => show win0_2.index t (0 : Fin 4) * 1 + 1 * 0 = win0_3.index t (0 : Fin 4) * 1 + 1 * (j 0).val; omega
    | ⟨1, _⟩ => show win0_2.index t (1 : Fin 4) * 1 + 1 * 0 = 0; omega
    | ⟨2, _⟩ => show win0_2.index t (2 : Fin 4) * 56 + 1 * (j 2).val = win0_3.index t (2 : Fin 4) * 56 + 1 * (j 2).val; omega
    | ⟨3, _⟩ => show win0_2.index t (3 : Fin 4) * 56 + 1 * (j 3).val = win0_3.index t (3 : Fin 4) * 56 + 1 * (j 3).val; omega
  rw [h0, h1, h2]

/-- What point `t` writes back is block `t` of the gated product of the arrays as the region finds them. -/
theorem flushed_eq (c : Dev nD) (t : Fin cfg0.N) :
    (dats m 0 c).flushed 3 t
      = ((cfg0.win 3).blk t).view.read (Elt F) (gatedAt (V m c main_arg0) (V m c main_v48) (V m c main_v59)) := by
  rw [Value.flushed3]
  exact block_eq (V m c main_arg0) (V m c main_v48) (V m c main_v59) t

/-- An index of the array is in point `t`'s block iff each coordinate is in the block's range on its axis. -/
theorem mem_blk (t : Fin cfg0.N) (i : S64x256x56x56.Idx) :
    i ∈ ((cfg0.win 3).blk t).view.set ↔ ∀ a : Fin 4, win0_3.index t a * S1x256x56x56.size a ≤ (i a).val
      ∧ (i a).val < win0_3.index t a * S1x256x56x56.size a + S1x256x56x56.size a := by
  show i ∈ ((View.whole main_v60).slice (win0_3.rect t)).set ↔ _
  rw [View.set_slice_whole, Rect.mem_set_unit]
  exact Iff.rfl

/-- Entry (n, c, h, w) lies in the block of the point that works on sample `n`. -/
theorem cover (i : S64x256x56x56.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hi2 : (i 2).val < 56 := (i 2).isLt
  have hi3 : (i 3).val < 56 := (i 3).isLt
  obtain ⟨t, ht⟩ := idx_onto ⟨(i 0).val, hi0⟩
  have q0 : win0_3.index t (0 : Fin 4) = (i 0).val := congrFun ht 0
  have q1 : win0_3.index t (1 : Fin 4) = 0 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 256 ≤ (i 1).val ∧ (i 1).val < win0_3.index t (1 : Fin 4) * 256 + 256; omega
  | ⟨2, _⟩ => show win0_3.index t (2 : Fin 4) * 56 ≤ (i 2).val ∧ (i 2).val < win0_3.index t (2 : Fin 4) * 56 + 56; omega
  | ⟨3, _⟩ => show win0_3.index t (3 : Fin 4) * 56 ≤ (i 3).val ∧ (i 3).val < win0_3.index t (3 : Fin 4) * 56 + 56; omega

/-- The result array after the run is the gated product of the arrays the region finds. -/
theorem final (c : Dev nD) :
    (dats m 0 c).arrAt 3 cfg0.N = gatedAt (V m c main_arg0) (V m c main_v48) (V m c main_v59) :=
  (dats m 0 c).arrAt_eq_of_cover 3 _ (fun t _ => flushed_eq m c t) cover

/-- The kernel's run, read: the result array is the gated product of `x` with the two gate arrays the host
    operations left; the channel gate and the enlarged spatial gate, which the region does not touch, are as the
    host operations left them; the arguments are as launched. -/
theorem run : θ_run defs (onTc (τ := τ) (main (F := F))) ⟨m, fun _ => 0, ρ⟩ fun r => ∀ c : Dev nD,
      r.2.mem ((c : Thread nD τ).loc main_v60)
        = gatedAt (m ((c : Thread nD τ).loc main_arg0)) (V m c main_v48) (V m c main_v59)
      ∧ r.2.mem ((c : Thread nD τ).loc main_v5) = V m c main_v5
      ∧ r.2.mem ((c : Thread nD τ).loc main_v37) = V m c main_v37
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((Value.post3 m r h c).trans (final m c)).trans (by rw [V_main_arg0]),
      (h c).2 main_v5 (Pipeline.mem_restRefs_of main_v5 (by decide) (by decide)),
      (h c).2 main_v37 (Pipeline.mem_restRefs_of main_v37 (by decide) (by decide)),
      Value.kept_main_arg0 m r h c,
      Value.kept_main_arg1 m r h c,
      Value.kept_main_arg2 m r h c,
      Value.kept_main_arg3 m r h c⟩)
    (run_main m ρ)

end Cert.KernelIdeal.Arr

end
-- ==== Proof.HostChain.lean ====
/-
  The small host-side functions that the kernel's program and the reference both compute, written once.

  * `chanGate a` is the logistic function 1 / (1 + exp (−a)) of the 4 × 256 channel table, entry by entry, and
    `spatGate28 b` the same of the 4 × 28 × 28 spatial table;
  * `srcIdx` is the vector of source positions of the nearest-neighbour enlargement from 28 to 56: output position `i`
    reads source position ⌊28·i / 56⌋, with jnp's floor division as it is lowered (`floorDiv`);
  * `gated x gc gs` is the product `x · gc · gs` on the host, `gc` spread over the two spatial axes and `gs` over the
    channel axis.
  Both programs apply exactly these operations, in this order.
-/
import proofs.«118643_j45870250721474_2_alg».proof.ReferenceIdeal
import proofs.«118643_j45870250721474_2_alg».proof.Proof.Gen.ReferenceIdeal

noncomputable section

namespace Cert.Gates

open Idealize.ShloMosaic Cert.ReferenceIdeal Cert.ReferenceIdeal.Facts₀

variable {F : FTy → Type} [FloatOps F]

/-- The logistic function of the channel table, as the host computes it: 1 / (1 + exp (−a)). -/
def chanGate (a : FVec F S4x1x256x1x1 .f32) : FVec F S4x1x256x1x1 .f32 :=
  Host.divf (broadcastInDim (s := S_) S4x1x256x1x1 ![] bcast_S_S4x1x256x1x1 (constant S_ .f32 0x3F800000#32))
    (addf (broadcastInDim (s := S_) S4x1x256x1x1 ![] bcast_S_S4x1x256x1x1 (constant S_ .f32 0x3F800000#32))
      (Host.exp (Host.negf a)))

/-- The logistic function of the 28 × 28 spatial table. -/
def spatGate28 (b : FVec F S4x1x1x28x28 .f32) : FVec F S4x1x1x28x28 .f32 :=
  Host.divf (broadcastInDim (s := S_) S4x1x1x28x28 ![] bcast_S_S4x1x1x28x28 (constant S_ .f32 0x3F800000#32))
    (addf (broadcastInDim (s := S_) S4x1x1x28x28 ![] bcast_S_S4x1x1x28x28 (constant S_ .f32 0x3F800000#32))
      (Host.exp (Host.negf b)))

/-- Floor division of a length-56 integer vector by a scalar: the truncating quotient, lowered by one where the
    signs of dividend and divisor differ and the remainder is not zero. -/
def floorDiv (a : IVec S56 32) (d : IVec S_ 32) : IVec S56 32 :=
  select
    (andi (cmpi .ne (signi a) (broadcastInDim (s := S_) S56 ![] bcast_S_S56 (signi d)))
      (cmpi .ne (Host.remsi a (broadcastInDim (s := S_) S56 ![] bcast_S_S56 d))
        (broadcastInDim (s := S_) S56 ![] bcast_S_S56 (constantI S_ 32 0#32))))
    (subi (Host.divsi a (broadcastInDim (s := S_) S56 ![] bcast_S_S56 d))
      (broadcastInDim (s := S_) S56 ![] bcast_S_S56 (constantI S_ 32 1#32)))
    (Host.divsi a (broadcastInDim (s := S_) S56 ![] bcast_S_S56 d))

/-- Output position `i` (of 56) samples source position ⌊28·i / 56⌋ (of 28). -/
def srcIdx : IVec S56 32 :=
  floorDiv (muli (iotaInDim S56 32 0) (broadcastInDim (s := S_) S56 ![] bcast_S_S56 (constantI S_ 32 28#32)))
    (constantI S_ 32 56#32)

/-- The gated product on the host: `x` times the channel gate spread over the spatial axes, times the spatial
    gate spread over the channel axis. -/
def gated (x : FVec F S64x256x56x56 .f32) (gc : FVec F S64x256x1x1 .f32) (gs : FVec F S64x1x56x56 .f32) :
    FVec F S64x256x56x56 .f32 :=
  mulf
    (mulf x (broadcastInDim (s := S64x256x1x1) S64x256x56x56 ![0, 1, 2, 3] bcast_S64x256x1x1_S64x256x56x56_0_1_2_3 gc))
    (broadcastInDim (s := S64x1x56x56) S64x256x56x56 ![0, 1, 2, 3] bcast_S64x1x56x56_S64x256x56x56_0_1_2_3 gs)

end Cert.Gates

end
-- ==== Proof.KernelHost.lean ====
/-
  The host operations the kernel's program runs before its region, in two stretches. The first 60 (four of the five
  lists of the launch: up to and including the second floor division) compute the channel gate, the 28 × 28 spatial
  gate and, twice, the vector of source positions ⌊28·i / 56⌋; read back after that stretch, from any starting
  contents, those four buffers hold the corresponding functions of the arguments, and the label and `x` buffers are
  untouched. What the region finds is the fold of the last list over the fold of that stretch.
-/
import proofs.«118643_j45870250721474_2_alg».proof.Proof.Gen.KernelIdeal.Frame
import proofs.«118643_j45870250721474_2_alg».proof.Proof.HostChain
import Idealize.ShloMosaic.Lib.StableHlo.Run

noncomputable section

namespace Cert.KernelIdeal.HostVals

open Cert.KernelIdeal Cert.KernelIdeal.Gen Idealize.ShloMosaic Idealize.ShloMosaic.TcCoe Idealize.SL.Sem
open Idealize.ShloMosaic.StableHlo

variable {F : FTy → Type} [FloatOps F]

/-- The first stretch: up to and including the second floor division. -/
abbrev preOps : List (HloOp τ sig (Elt F)) := hostOps0 ++ (hostOps0_1 ++ (hostOps0_2 ++ hostOps0_3))

/-- What the region finds is the fold of the last list of host operations over the fold of the first stretch. -/
theorem V_split (m : (ℓ : Loc nD τ sig) → Buf (Elt F) ℓ) (c : Dev nD) (b : Ref sig .tc) :
    V m c b = after hostOps0_4 (after preOps (fun b => m (c, b))) b := by
  dsimp only [V]
  rw [show List.flatten [(hostOps0 : List (HloOp τ sig (Elt F))), hostOps0_1, hostOps0_2, hostOps0_3, hostOps0_4]
      = preOps ++ hostOps0_4 from by
        simp only [preOps, List.flatten_cons, List.flatten_nil, List.append_nil, List.append_assoc],
    StableHlo.after_append]

theorem pre_chanGate (W : Valuation τ sig (Elt F)) :
    (after preOps W (main_v5 : DevRef τ sig) : S4x1x256x1x1.Idx → Elt F .f32)
      = Cert.Gates.chanGate (W (main_arg2 : DevRef τ sig)) := by
  simp only [preOps, hostOps0, hostOps0_1, hostOps0_2, hostOps0_3, List.cons_append, List.nil_append]
  after_results_simp
  rfl

theorem pre_spatGate28 (W : Valuation τ sig (Elt F)) :
    (after preOps W (main_v11 : DevRef τ sig) : S4x1x1x28x28.Idx → Elt F .f32)
      = Cert.Gates.spatGate28 (W (main_arg3 : DevRef τ sig)) := by
  simp only [preOps, hostOps0, hostOps0_1, hostOps0_2, hostOps0_3, List.cons_append, List.nil_append]
  after_results_simp
  rfl

set_option maxHeartbeats 2000000 in
theorem pre_rows (W : Valuation τ sig (Elt F)) :
    (after preOps W (main_v15 : DevRef τ sig) : S56.Idx → BitVec 32) = Cert.Gates.srcIdx := by
  simp only [preOps, hostOps0, hostOps0_1, hostOps0_2, hostOps0_3, List.cons_append, List.nil_append]
  after_results_simp
  rfl

set_option maxHeartbeats 2000000 in
theorem pre_cols (W : Valuation τ sig (Elt F)) :
    (after preOps W (main_v19 : DevRef τ sig) : S56.Idx → BitVec 32) = Cert.Gates.srcIdx := by
  simp only [preOps, hostOps0, hostOps0_1, hostOps0_2, hostOps0_3, List.cons_append, List.nil_append]
  after_results_simp
  rfl

theorem pre_arg0 (W : Valuation τ sig (Elt F)) : after preOps W (main_arg0 : DevRef τ sig) = W (main_arg0 : DevRef τ sig) := by
  simp only [preOps, hostOps0, hostOps0_1, hostOps0_2, hostOps0_3, List.cons_append, List.nil_append]
  after_results_simp

theorem pre_arg1 (W : Valuation τ sig (Elt F)) : after preOps W (main_arg1 : DevRef τ sig) = W (main_arg1 : DevRef τ sig) := by
  simp only [preOps, hostOps0, hostOps0_1, hostOps0_2, hostOps0_3, List.cons_append, List.nil_append]
  after_results_simp

end Cert.KernelIdeal.HostVals

end
-- ==== Proof.RefRun.lean ====
/-
  The reference program run: its @main, with the two calls of the floor-division helper (and the selection
  helper inside each) written out at their call sites over the calls' own buffers, is one straight line of 114
  host operations. Every weakly fair execution of it terminates, and every buffer ends at the fold of those operations
  over the launch contents.
-/
import proofs.«118643_j45870250721474_2_alg».proof.ReferenceIdeal
import proofs.«118643_j45870250721474_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in program order; each call of the floor-division helper is its seventeen operations
    (the last one the selection helper's single `select`) over that call's buffers. -/
abbrev ops : List (HloOp τ sig (Elt F)) :=
  [ StableHlo.unary main_arg2 main_v0 (Host.negf : (⟨S4x1x256x1x1, .f32⟩ : BufTy).Contents (Elt F) → (⟨S4x1x256x1x1, .f32⟩ : BufTy).Contents (Elt F)),
    StableHlo.unary main_v0 main_v1 (Host.exp : (⟨S4x1x256x1x1, .f32⟩ : BufTy).Contents (Elt F) → (⟨S4x1x256x1x1, .f32⟩ : BufTy).Contents (Elt F)),
    StableHlo.nullary main_cst (constant S_ .f32 0x3F800000#32),
    StableHlo.unary main_cst main_v2 (broadcastInDim S4x1x256x1x1 ![] bcast_S_S4x1x256x1x1 : (⟨S_, .f32⟩ : BufTy).Contents (Elt F) → (⟨S4x1x256x1x1, .f32⟩ : BufTy).Contents (Elt F)),
    StableHlo.binary main_v2 main_v1 main_v3 (addf : (⟨S4x1x256x1x1, .f32⟩ : BufTy).Contents (Elt F) → (⟨S4x1x256x1x1, .f32⟩ : BufTy).Contents (Elt F) → (⟨S4x1x256x1x1, .f32⟩ : BufTy).Contents (Elt F)),
    StableHlo.nullary main_cst_0 (constant S_ .f32 0x3F800000#32),
    StableHlo.unary main_cst_0 main_v4 (broadcastInDim S4x1x256x1x1 ![] bcast_S_S4x1x256x1x1 : (⟨S_, .f32⟩ : BufTy).Contents (Elt F) → (⟨S4x1x256x1x1, .f32⟩ : BufTy).Contents (Elt F)),
    StableHlo.binary main_v4 main_v3 main_v5 (Host.divf : (⟨S4x1x256x1x1, .f32⟩ : BufTy).Contents (Elt F) → (⟨S4x1x256x1x1, .f32⟩ : BufTy).Contents (Elt F) → (⟨S4x1x256x1x1, .f32⟩ : BufTy).Contents (Elt F)),
    StableHlo.unary main_arg3 main_v6 (Host.negf : (⟨S4x1x1x28x28, .f32⟩ : BufTy).Contents (Elt F) → (⟨S4x1x1x28x28, .f32⟩ : BufTy).Contents (Elt F)),
    StableHlo.unary main_v6 main_v7 (Host.exp : (⟨S4x1x1x28x28, .f32⟩ : BufTy).Contents (Elt F) → (⟨S4x1x1x28x28, .f32⟩ : BufTy).Contents (Elt F)),
    StableHlo.nullary main_cst_1 (constant S_ .f32 0x3F800000#32),
    StableHlo.unary main_cst_1 main_v8 (broadcastInDim S4x1x1x28x28 ![] bcast_S_S4x1x1x28x28 : (⟨S_, .f32⟩ : BufTy).Contents (Elt F) → (⟨S4x1x1x28x28, .f32⟩ : BufTy).Contents (Elt F)),
    StableHlo.binary main_v8 main_v7 main_v9 (addf : (⟨S4x1x1x28x28, .f32⟩ : BufTy).Contents (Elt F) → (⟨S4x1x1x28x28, .f32⟩ : BufTy).Contents (Elt F) → (⟨S4x1x1x28x28, .f32⟩ : BufTy).Contents (Elt F)),
    StableHlo.nullary main_cst_2 (constant S_ .f32 0x3F800000#32),
    StableHlo.unary main_cst_2 main_v10 (broadcastInDim S4x1x1x28x28 ![] bcast_S_S4x1x1x28x28 : (⟨S_, .f32⟩ : BufTy).Contents (Elt F) → (⟨S4x1x1x28x28, .f32⟩ : BufTy).Contents (Elt F)),
    StableHlo.binary main_v10 main_v9 main_v11 (Host.divf : (⟨S4x1x1x28x28, .f32⟩ : BufTy).Contents (Elt F) → (⟨S4x1x1x28x28, .f32⟩ : BufTy).Contents (Elt F) → (⟨S4x1x1x28x28, .f32⟩ : BufTy).Contents (Elt F)),
    StableHlo.nullary main_v12 (iotaInDim S56 32 0),
    StableHlo.nullary main_c (constantI S_ 32 28#32),
    StableHlo.unary main_c main_v13 (broadcastInDim S56 ![] bcast_S_S56 : (⟨S_, .i32⟩ : BufTy).Contents (Elt F) → (⟨S56, .i32⟩ : BufTy).Contents (Elt F)),
    StableHlo.binary main_v12 main_v13 main_v14 (muli : (⟨S56, .i32⟩ : BufTy).Contents (Elt F) → (⟨S56, .i32⟩ : BufTy).Contents (Elt F) → (⟨S56, .i32⟩ : BufTy).Contents (Elt F)),
    StableHlo.nullary main_c_3 (constantI S_ 32 56#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S56, .i32⟩) (broadcastInDim S56 ![] bcast_S_S56),
    StableHlo.TRef.binary (.of main_v14 : StableHlo.TRef sig ⟨S56, .i32⟩) (.of main_call0_v1 : StableHlo.TRef sig ⟨S56, .i32⟩) (.of main_call0_v2 : StableHlo.TRef sig ⟨S56, .i32⟩) Host.divsi,
    StableHlo.TRef.unary (.of main_v14 : StableHlo.TRef sig ⟨S56, .i32⟩) (.of main_call0_v3 : StableHlo.TRef sig ⟨S56, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S56, .i32⟩) (broadcastInDim S56 ![] bcast_S_S56),
    StableHlo.TRef.binary (.of main_call0_v3 : StableHlo.TRef sig ⟨S56, .i32⟩) (.of main_call0_v5 : StableHlo.TRef sig ⟨S56, .i32⟩) (.of main_call0_v6 : StableHlo.TRef sig ⟨S56, .i1⟩) (cmpi .ne),
    StableHlo.TRef.unary (.of main_call0_v0 : StableHlo.TRef sig ⟨S_, .i32⟩) (.of main_call0_v7 : StableHlo.TRef sig ⟨S56, .i32⟩) (broadcastInDim S56 ![] bcast_S_S56),
    StableHlo.TRef.binary (.of main_v14 : StableHlo.TRef sig ⟨S56, .i32⟩) (.of main_call0_v7 : StableHlo.TRef sig ⟨S56, .i32⟩) (.of main_call0_v8 : StableHlo.TRef sig ⟨S56, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S56, .i32⟩) (broadcastInDim S56 ![] bcast_S_S56),
    StableHlo.TRef.binary (.of main_call0_v8 : StableHlo.TRef sig ⟨S56, .i32⟩) (.of main_call0_v9 : StableHlo.TRef sig ⟨S56, .i32⟩) (.of main_call0_v10 : StableHlo.TRef sig ⟨S56, .i1⟩) (cmpi .ne),
    StableHlo.TRef.binary (.of main_call0_v6 : StableHlo.TRef sig ⟨S56, .i1⟩) (.of main_call0_v10 : StableHlo.TRef sig ⟨S56, .i1⟩) (.of main_call0_v11 : StableHlo.TRef sig ⟨S56, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S56, .i32⟩) (broadcastInDim S56 ![] bcast_S_S56),
    StableHlo.TRef.binary (.of main_call0_v2 : StableHlo.TRef sig ⟨S56, .i32⟩) (.of main_call0_v12 : StableHlo.TRef sig ⟨S56, .i32⟩) (.of main_call0_v13 : StableHlo.TRef sig ⟨S56, .i32⟩) subi,
    StableHlo.TRef.ternary (.of main_call0_v11 : StableHlo.TRef sig ⟨S56, .i1⟩) (.of main_call0_v13 : StableHlo.TRef sig ⟨S56, .i32⟩) (.of main_call0_v2 : StableHlo.TRef sig ⟨S56, .i32⟩) (.of main_v15 : StableHlo.TRef sig ⟨S56, .i32⟩) select,
    StableHlo.nullary main_v16 (iotaInDim S56 32 0),
    StableHlo.nullary main_c_4 (constantI S_ 32 28#32),
    StableHlo.unary main_c_4 main_v17 (broadcastInDim S56 ![] bcast_S_S56 : (⟨S_, .i32⟩ : BufTy).Contents (Elt F) → (⟨S56, .i32⟩ : BufTy).Contents (Elt F)),
    StableHlo.binary main_v16 main_v17 main_v18 (muli : (⟨S56, .i32⟩ : BufTy).Contents (Elt F) → (⟨S56, .i32⟩ : BufTy).Contents (Elt F) → (⟨S56, .i32⟩ : BufTy).Contents (Elt F)),
    StableHlo.nullary main_c_5 (constantI S_ 32 56#32),
    StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S56, .i32⟩) (broadcastInDim S56 ![] bcast_S_S56),
    StableHlo.TRef.binary (.of main_v18 : StableHlo.TRef sig ⟨S56, .i32⟩) (.of main_call1_v1 : StableHlo.TRef sig ⟨S56, .i32⟩) (.of main_call1_v2 : StableHlo.TRef sig ⟨S56, .i32⟩) Host.divsi,
    StableHlo.TRef.unary (.of main_v18 : StableHlo.TRef sig ⟨S56, .i32⟩) (.of main_call1_v3 : StableHlo.TRef sig ⟨S56, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S56, .i32⟩) (broadcastInDim S56 ![] bcast_S_S56),
    StableHlo.TRef.binary (.of main_call1_v3 : StableHlo.TRef sig ⟨S56, .i32⟩) (.of main_call1_v5 : StableHlo.TRef sig ⟨S56, .i32⟩) (.of main_call1_v6 : StableHlo.TRef sig ⟨S56, .i1⟩) (cmpi .ne),
    StableHlo.TRef.unary (.of main_call1_v0 : StableHlo.TRef sig ⟨S_, .i32⟩) (.of main_call1_v7 : StableHlo.TRef sig ⟨S56, .i32⟩) (broadcastInDim S56 ![] bcast_S_S56),
    StableHlo.TRef.binary (.of main_v18 : StableHlo.TRef sig ⟨S56, .i32⟩) (.of main_call1_v7 : StableHlo.TRef sig ⟨S56, .i32⟩) (.of main_call1_v8 : StableHlo.TRef sig ⟨S56, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S56, .i32⟩) (broadcastInDim S56 ![] bcast_S_S56),
    StableHlo.TRef.binary (.of main_call1_v8 : StableHlo.TRef sig ⟨S56, .i32⟩) (.of main_call1_v9 : StableHlo.TRef sig ⟨S56, .i32⟩) (.of main_call1_v10 : StableHlo.TRef sig ⟨S56, .i1⟩) (cmpi .ne),
    StableHlo.TRef.binary (.of main_call1_v6 : StableHlo.TRef sig ⟨S56, .i1⟩) (.of main_call1_v10 : StableHlo.TRef sig ⟨S56, .i1⟩) (.of main_call1_v11 : StableHlo.TRef sig ⟨S56, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S56, .i32⟩) (broadcastInDim S56 ![] bcast_S_S56),
    StableHlo.TRef.binary (.of main_call1_v2 : StableHlo.TRef sig ⟨S56, .i32⟩) (.of main_call1_v12 : StableHlo.TRef sig ⟨S56, .i32⟩) (.of main_call1_v13 : StableHlo.TRef sig ⟨S56, .i32⟩) subi,
    StableHlo.TRef.ternary (.of main_call1_v11 : StableHlo.TRef sig ⟨S56, .i1⟩) (.of main_call1_v13 : StableHlo.TRef sig ⟨S56, .i32⟩) (.of main_call1_v2 : StableHlo.TRef sig ⟨S56, .i32⟩) (.of main_v19 : StableHlo.TRef sig ⟨S56, .i32⟩) select,
    StableHlo.unary main_v15 main_v20 (broadcastInDim S56x1 ![0] bcast_S56_S56x1_0 : (⟨S56, .i32⟩ : BufTy).Contents (Elt F) → (⟨S56x1, .i32⟩ : BufTy).Contents (Elt F)),
    StableHlo.unary main_v19 main_v21 (broadcastInDim S1x56 ![1] bcast_S56_S1x56_1 : (⟨S56, .i32⟩ : BufTy).Contents (Elt F) → (⟨S1x56, .i32⟩ : BufTy).Contents (Elt F)),
    StableHlo.nullary main_c_6 (constantI S_ 32 0#32),
    StableHlo.unary main_c_6 main_v22 (broadcastInDim S56x1 ![] bcast_S_S56x1 : (⟨S_, .i32⟩ : BufTy).Contents (Elt F) → (⟨S56x1, .i32⟩ : BufTy).Contents (Elt F)),
    StableHlo.binary main_v20 main_v22 main_v23 (cmpi .slt : (⟨S56x1, .i32⟩ : BufTy).Contents (Elt F) → (⟨S56x1, .i32⟩ : BufTy).Contents (Elt F) → (⟨S56x1, .i1⟩ : BufTy).Contents (Elt F)),
    StableHlo.nullary main_c_7 (constantI S_ 32 28#32),
    StableHlo.unary main_c_7 main_v24 (broadcastInDim S56x1 ![] bcast_S_S56x1 : (⟨S_, .i32⟩ : BufTy).Contents (Elt F) → (⟨S56x1, .i32⟩ : BufTy).Contents (Elt F)),
    StableHlo.binary main_v20 main_v24 main_v25 (addi : (⟨S56x1, .i32⟩ : BufTy).Contents (Elt F) → (⟨S56x1, .i32⟩ : BufTy).Contents (Elt F) → (⟨S56x1, .i32⟩ : BufTy).Contents (Elt F)),
    StableHlo.ternary main_v23 main_v25 main_v20 main_v26 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    StableHlo.nullary main_c_8 (constantI S_ 32 0#32),
    StableHlo.unary main_c_8 main_v27 (broadcastInDim S1x56 ![] bcast_S_S1x56 : (⟨S_, .i32⟩ : BufTy).Contents (Elt F) → (⟨S1x56, .i32⟩ : BufTy).Contents (Elt F)),
    StableHlo.binary main_v21 main_v27 main_v28 (cmpi .slt : (⟨S1x56, .i32⟩ : BufTy).Contents (Elt F) → (⟨S1x56, .i32⟩ : BufTy).Contents (Elt F) → (⟨S1x56, .i1⟩ : BufTy).Contents (Elt F)),
    StableHlo.nullary main_c_9 (constantI S_ 32 28#32),
    StableHlo.unary main_c_9 main_v29 (broadcastInDim S1x56 ![] bcast_S_S1x56 : (⟨S_, .i32⟩ : BufTy).Contents (Elt F) → (⟨S1x56, .i32⟩ : BufTy).Contents (Elt F)),
    StableHlo.binary main_v21 main_v29 main_v30 (addi : (⟨S1x56, .i32⟩ : BufTy).Contents (Elt F) → (⟨S1x56, .i32⟩ : BufTy).Contents (Elt F) → (⟨S1x56, .i32⟩ : BufTy).Contents (Elt F)),
    StableHlo.ternary main_v28 main_v30 main_v21 main_v31 (select : (⟨S1x56, .i1⟩ : BufTy).Contents (Elt F) → (⟨S1x56, .i32⟩ : BufTy).Contents (Elt F) → (⟨S1x56, .i32⟩ : BufTy).Contents (Elt F) → (⟨S1x56, .i32⟩ : BufTy).Contents (Elt F)),
    StableHlo.unary main_v26 main_v32 (broadcastInDim S56x56 ![0, 1] bcast_S56x1_S56x56_0_1 : (⟨S56x1, .i32⟩ : BufTy).Contents (Elt F) → (⟨S56x56, .i32⟩ : BufTy).Contents (Elt F)),
    StableHlo.unary main_v31 main_v33 (broadcastInDim S56x56 ![0, 1] bcast_S1x56_S56x56_0_1 : (⟨S1x56, .i32⟩ : BufTy).Contents (Elt F) → (⟨S56x56, .i32⟩ : BufTy).Contents (Elt F)),
    StableHlo.unary main_v32 main_v34 (broadcastInDim S56x56x1 ![0, 1] bcast_S56x56_S56x56x1_0_1 : (⟨S56x56, .i32⟩ : BufTy).Contents (Elt F) → (⟨S56x56x1, .i32⟩ : BufTy).Contents (Elt F)),
    StableHlo.unary main_v33 main_v35 (broadcastInDim S56x56x1 ![0, 1] bcast_S56x56_S56x56x1_0_1 : (⟨S56x56, .i32⟩ : BufTy).Contents (Elt F) → (⟨S56x56x1, .i32⟩ : BufTy).Contents (Elt F)),
    StableHlo.binary main_v34 main_v35 main_v36 ((fun a b => concatenate S56x56x2 2 [⟨S56x56x1, a⟩, ⟨S56x56x1, b⟩] concatenates_S56x56x1_S56x56x1_S56x56x2_d2) : (⟨S56x56x1, .i32⟩ : BufTy).Contents (Elt F) → (⟨S56x56x1, .i32⟩ : BufTy).Contents (Elt F) → (⟨S56x56x2, .i32⟩ : BufTy).Contents (Elt F)),
    StableHlo.binary main_v11 main_v36 main_v37 ((fun x i => Host.gather gather_S4x1x1x28x28_S56x56x2_S4x1x1x56x56_012_34_n_n_34_2_41111 x i) : (⟨S4x1x1x28x28, .f32⟩ : BufTy).Contents (Elt F) → (⟨S56x56x2, .i32⟩ : BufTy).Contents (Elt F) → (⟨S4x1x1x56x56, .f32⟩ : BufTy).Contents (Elt F)),
    StableHlo.nullary main_c_10 (constantI S_ 32 0#32),
    StableHlo.unary main_c_10 main_v38 (broadcastInDim S64 ![] bcast_S_S64 : (⟨S_, .i32⟩ : BufTy).Contents (Elt F) → (⟨S64, .i32⟩ : BufTy).Contents (Elt F)),
    StableHlo.binary main_arg1 main_v38 main_v39 (cmpi .slt : (⟨S64, .i32⟩ : BufTy).Contents (Elt F) → (⟨S64, .i32⟩ : BufTy).Contents (Elt F) → (⟨S64, .i1⟩ : BufTy).Contents (Elt F)),
    StableHlo.nullary main_c_11 (constantI S_ 32 4#32),
    StableHlo.unary main_c_11 main_v40 (broadcastInDim S64 ![] bcast_S_S64 : (⟨S_, .i32⟩ : BufTy).Contents (Elt F) → (⟨S64, .i32⟩ : BufTy).Contents (Elt F)),
    StableHlo.binary main_arg1 main_v40 main_v41 (addi : (⟨S64, .i32⟩ : BufTy).Contents (Elt F) → (⟨S64, .i32⟩ : BufTy).Contents (Elt F) → (⟨S64, .i32⟩ : BufTy).Contents (Elt F)),
    StableHlo.ternary main_v39 main_v41 main_arg1 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_12 (constantI S_ 32 0#32),
    StableHlo.unary main_c_12 main_v43 (broadcastInDim S64 ![] bcast_S_S64 : (⟨S_, .i32⟩ : BufTy).Contents (Elt F) → (⟨S64, .i32⟩ : BufTy).Contents (Elt F)),
    StableHlo.unary main_v43 main_v44 (id : (⟨S64, .i32⟩ : BufTy).Contents (Elt F) → (⟨S64, .i32⟩ : BufTy).Contents (Elt F)),
    StableHlo.unary main_v42 main_v45 (broadcastInDim S64x1 ![0] bcast_S64_S64x1_0 : (⟨S64, .i32⟩ : BufTy).Contents (Elt F) → (⟨S64x1, .i32⟩ : BufTy).Contents (Elt F)),
    StableHlo.unary main_v44 main_v46 (broadcastInDim S64x1 ![0] bcast_S64_S64x1_0 : (⟨S64, .i32⟩ : BufTy).Contents (Elt F) → (⟨S64x1, .i32⟩ : BufTy).Contents (Elt F)),
    StableHlo.binary main_v45 main_v46 main_v47 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v5 main_v47 main_v48 ((fun x i => Host.gather gather_S4x1x256x1x1_S64x2_S64x256x1x1_123_01_n_n_01_1_1125611 x i) : (⟨S4x1x256x1x1, .f32⟩ : BufTy).Contents (Elt F) → (⟨S64x2, .i32⟩ : BufTy).Contents (Elt F) → (⟨S64x256x1x1, .f32⟩ : BufTy).Contents (Elt F)),
    StableHlo.nullary main_c_13 (constantI S_ 32 0#32),
    StableHlo.unary main_c_13 main_v49 (broadcastInDim S64 ![] bcast_S_S64 : (⟨S_, .i32⟩ : BufTy).Contents (Elt F) → (⟨S64, .i32⟩ : BufTy).Contents (Elt F)),
    StableHlo.binary main_arg1 main_v49 main_v50 (cmpi .slt : (⟨S64, .i32⟩ : BufTy).Contents (Elt F) → (⟨S64, .i32⟩ : BufTy).Contents (Elt F) → (⟨S64, .i1⟩ : BufTy).Contents (Elt F)),
    StableHlo.nullary main_c_14 (constantI S_ 32 4#32),
    StableHlo.unary main_c_14 main_v51 (broadcastInDim S64 ![] bcast_S_S64 : (⟨S_, .i32⟩ : BufTy).Contents (Elt F) → (⟨S64, .i32⟩ : BufTy).Contents (Elt F)),
    StableHlo.binary main_arg1 main_v51 main_v52 (addi : (⟨S64, .i32⟩ : BufTy).Contents (Elt F) → (⟨S64, .i32⟩ : BufTy).Contents (Elt F) → (⟨S64, .i32⟩ : BufTy).Contents (Elt F)),
    StableHlo.ternary main_v50 main_v52 main_arg1 main_v53 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_15 (constantI S_ 32 0#32),
    StableHlo.unary main_c_15 main_v54 (broadcastInDim S64 ![] bcast_S_S64 : (⟨S_, .i32⟩ : BufTy).Contents (Elt F) → (⟨S64, .i32⟩ : BufTy).Contents (Elt F)),
    StableHlo.unary main_v54 main_v55 (id : (⟨S64, .i32⟩ : BufTy).Contents (Elt F) → (⟨S64, .i32⟩ : BufTy).Contents (Elt F)),
    StableHlo.unary main_v53 main_v56 (broadcastInDim S64x1 ![0] bcast_S64_S64x1_0 : (⟨S64, .i32⟩ : BufTy).Contents (Elt F) → (⟨S64x1, .i32⟩ : BufTy).Contents (Elt F)),
    StableHlo.unary main_v55 main_v57 (broadcastInDim S64x1 ![0] bcast_S64_S64x1_0 : (⟨S64, .i32⟩ : BufTy).Contents (Elt F) → (⟨S64x1, .i32⟩ : BufTy).Contents (Elt F)),
    StableHlo.binary main_v56 main_v57 main_v58 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v37 main_v58 main_v59 ((fun x i => Host.gather gather_S4x1x1x56x56_S64x2_S64x1x56x56_123_01_n_n_01_1_1115656 x i) : (⟨S4x1x1x56x56, .f32⟩ : BufTy).Contents (Elt F) → (⟨S64x2, .i32⟩ : BufTy).Contents (Elt F) → (⟨S64x1x56x56, .f32⟩ : BufTy).Contents (Elt F)),
    StableHlo.unary main_v48 main_v60 (broadcastInDim S64x256x56x56 ![0, 1, 2, 3] bcast_S64x256x1x1_S64x256x56x56_0_1_2_3 : (⟨S64x256x1x1, .f32⟩ : BufTy).Contents (Elt F) → (⟨S64x256x56x56, .f32⟩ : BufTy).Contents (Elt F)),
    StableHlo.binary main_arg0 main_v60 main_v61 (mulf : (⟨S64x256x56x56, .f32⟩ : BufTy).Contents (Elt F) → (⟨S64x256x56x56, .f32⟩ : BufTy).Contents (Elt F) → (⟨S64x256x56x56, .f32⟩ : BufTy).Contents (Elt F)),
    StableHlo.unary main_v59 main_v62 (broadcastInDim S64x256x56x56 ![0, 1, 2, 3] bcast_S64x1x56x56_S64x256x56x56_0_1_2_3 : (⟨S64x1x56x56, .f32⟩ : BufTy).Contents (Elt F) → (⟨S64x256x56x56, .f32⟩ : BufTy).Contents (Elt F)),
    StableHlo.binary main_v61 main_v62 main_v63 (mulf : (⟨S64x256x56x56, .f32⟩ : BufTy).Contents (Elt F) → (⟨S64x256x56x56, .f32⟩ : BufTy).Contents (Elt F) → (⟨S64x256x56x56, .f32⟩ : BufTy).Contents (Elt F)) ]

set_option maxRecDepth 4096 in
set_option maxHeartbeats 4000000 in
/-- @main is that straight line: the two windows of statements and the helpers' bodies unfolded at their calls, both
    sides are one chain of operation steps once sequencing is reassociated. -/
theorem main_eq (c : Dev nD) : main (F := F) c = seq ops := by
  simp only [main, main_part0, main_part1, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., nullary_bufs_sub .., nullary_bufs_sub ..,
    unary_bufs_sub .., binary_bufs_sub .., nullary_bufs_sub .., unary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., nullary_bufs_sub .., unary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., unary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., unary_bufs_sub .., unary_bufs_sub .., unary_bufs_sub ..,
    binary_bufs_sub .., binary_bufs_sub .., unary_bufs_sub .., binary_bufs_sub .., unary_bufs_sub .., binary_bufs_sub ..⟩

/-- Every weakly fair execution of @main terminates with every buffer at the fold of the operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefVals.lean ====
/-
  The reference's 114 operations in two stretches. The first 60 end with the second floor division: they compute the
  channel gate, the 28 × 28 spatial gate and, twice, the vector of source positions ⌊28·i / 56⌋; read back after that
  stretch, from any starting contents, those four buffers hold the corresponding functions of the arguments (the two
  position vectors hold one closed vector), and the argument buffers are untouched. The remaining 54 operations, which
  enlarge the spatial gate, pick each sample's gates and multiply, are compared with the kernel's program elsewhere.
-/
import proofs.«118643_j45870250721474_2_alg».proof.Proof.RefRun
import proofs.«118643_j45870250721474_2_alg».proof.Proof.HostChain
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The first stretch: up to and including the second floor division. -/
abbrev opsPre : List (HloOp τ sig (Elt F)) :=
  [ StableHlo.unary main_arg2 main_v0 (Host.negf : (⟨S4x1x256x1x1, .f32⟩ : BufTy).Contents (Elt F) → (⟨S4x1x256x1x1, .f32⟩ : BufTy).Contents (Elt F)),
    StableHlo.unary main_v0 main_v1 (Host.exp : (⟨S4x1x256x1x1, .f32⟩ : BufTy).Contents (Elt F) → (⟨S4x1x256x1x1, .f32⟩ : BufTy).Contents (Elt F)),
    StableHlo.nullary main_cst (constant S_ .f32 0x3F800000#32),
    StableHlo.unary main_cst main_v2 (broadcastInDim S4x1x256x1x1 ![] bcast_S_S4x1x256x1x1 : (⟨S_, .f32⟩ : BufTy).Contents (Elt F) → (⟨S4x1x256x1x1, .f32⟩ : BufTy).Contents (Elt F)),
    StableHlo.binary main_v2 main_v1 main_v3 (addf : (⟨S4x1x256x1x1, .f32⟩ : BufTy).Contents (Elt F) → (⟨S4x1x256x1x1, .f32⟩ : BufTy).Contents (Elt F) → (⟨S4x1x256x1x1, .f32⟩ : BufTy).Contents (Elt F)),
    StableHlo.nullary main_cst_0 (constant S_ .f32 0x3F800000#32),
    StableHlo.unary main_cst_0 main_v4 (broadcastInDim S4x1x256x1x1 ![] bcast_S_S4x1x256x1x1 : (⟨S_, .f32⟩ : BufTy).Contents (Elt F) → (⟨S4x1x256x1x1, .f32⟩ : BufTy).Contents (Elt F)),
    StableHlo.binary main_v4 main_v3 main_v5 (Host.divf : (⟨S4x1x256x1x1, .f32⟩ : BufTy).Contents (Elt F) → (⟨S4x1x256x1x1, .f32⟩ : BufTy).Contents (Elt F) → (⟨S4x1x256x1x1, .f32⟩ : BufTy).Contents (Elt F)),
    StableHlo.unary main_arg3 main_v6 (Host.negf : (⟨S4x1x1x28x28, .f32⟩ : BufTy).Contents (Elt F) → (⟨S4x1x1x28x28, .f32⟩ : BufTy).Contents (Elt F)),
    StableHlo.unary main_v6 main_v7 (Host.exp : (⟨S4x1x1x28x28, .f32⟩ : BufTy).Contents (Elt F) → (⟨S4x1x1x28x28, .f32⟩ : BufTy).Contents (Elt F)),
    StableHlo.nullary main_cst_1 (constant S_ .f32 0x3F800000#32),
    StableHlo.unary main_cst_1 main_v8 (broadcastInDim S4x1x1x28x28 ![] bcast_S_S4x1x1x28x28 : (⟨S_, .f32⟩ : BufTy).Contents (Elt F) → (⟨S4x1x1x28x28, .f32⟩ : BufTy).Contents (Elt F)),
    StableHlo.binary main_v8 main_v7 main_v9 (addf : (⟨S4x1x1x28x28, .f32⟩ : BufTy).Contents (Elt F) → (⟨S4x1x1x28x28, .f32⟩ : BufTy).Contents (Elt F) → (⟨S4x1x1x28x28, .f32⟩ : BufTy).Contents (Elt F)),
    StableHlo.nullary main_cst_2 (constant S_ .f32 0x3F800000#32),
    StableHlo.unary main_cst_2 main_v10 (broadcastInDim S4x1x1x28x28 ![] bcast_S_S4x1x1x28x28 : (⟨S_, .f32⟩ : BufTy).Contents (Elt F) → (⟨S4x1x1x28x28, .f32⟩ : BufTy).Contents (Elt F)),
    StableHlo.binary main_v10 main_v9 main_v11 (Host.divf : (⟨S4x1x1x28x28, .f32⟩ : BufTy).Contents (Elt F) → (⟨S4x1x1x28x28, .f32⟩ : BufTy).Contents (Elt F) → (⟨S4x1x1x28x28, .f32⟩ : BufTy).Contents (Elt F)),
    StableHlo.nullary main_v12 (iotaInDim S56 32 0),
    StableHlo.nullary main_c (constantI S_ 32 28#32),
    StableHlo.unary main_c main_v13 (broadcastInDim S56 ![] bcast_S_S56 : (⟨S_, .i32⟩ : BufTy).Contents (Elt F) → (⟨S56, .i32⟩ : BufTy).Contents (Elt F)),
    StableHlo.binary main_v12 main_v13 main_v14 (muli : (⟨S56, .i32⟩ : BufTy).Contents (Elt F) → (⟨S56, .i32⟩ : BufTy).Contents (Elt F) → (⟨S56, .i32⟩ : BufTy).Contents (Elt F)),
    StableHlo.nullary main_c_3 (constantI S_ 32 56#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S56, .i32⟩) (broadcastInDim S56 ![] bcast_S_S56),
    StableHlo.TRef.binary (.of main_v14 : StableHlo.TRef sig ⟨S56, .i32⟩) (.of main_call0_v1 : StableHlo.TRef sig ⟨S56, .i32⟩) (.of main_call0_v2 : StableHlo.TRef sig ⟨S56, .i32⟩) Host.divsi,
    StableHlo.TRef.unary (.of main_v14 : StableHlo.TRef sig ⟨S56, .i32⟩) (.of main_call0_v3 : StableHlo.TRef sig ⟨S56, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S56, .i32⟩) (broadcastInDim S56 ![] bcast_S_S56),
    StableHlo.TRef.binary (.of main_call0_v3 : StableHlo.TRef sig ⟨S56, .i32⟩) (.of main_call0_v5 : StableHlo.TRef sig ⟨S56, .i32⟩) (.of main_call0_v6 : StableHlo.TRef sig ⟨S56, .i1⟩) (cmpi .ne),
    StableHlo.TRef.unary (.of main_call0_v0 : StableHlo.TRef sig ⟨S_, .i32⟩) (.of main_call0_v7 : StableHlo.TRef sig ⟨S56, .i32⟩) (broadcastInDim S56 ![] bcast_S_S56),
    StableHlo.TRef.binary (.of main_v14 : StableHlo.TRef sig ⟨S56, .i32⟩) (.of main_call0_v7 : StableHlo.TRef sig ⟨S56, .i32⟩) (.of main_call0_v8 : StableHlo.TRef sig ⟨S56, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S56, .i32⟩) (broadcastInDim S56 ![] bcast_S_S56),
    StableHlo.TRef.binary (.of main_call0_v8 : StableHlo.TRef sig ⟨S56, .i32⟩) (.of main_call0_v9 : StableHlo.TRef sig ⟨S56, .i32⟩) (.of main_call0_v10 : StableHlo.TRef sig ⟨S56, .i1⟩) (cmpi .ne),
    StableHlo.TRef.binary (.of main_call0_v6 : StableHlo.TRef sig ⟨S56, .i1⟩) (.of main_call0_v10 : StableHlo.TRef sig ⟨S56, .i1⟩) (.of main_call0_v11 : StableHlo.TRef sig ⟨S56, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S56, .i32⟩) (broadcastInDim S56 ![] bcast_S_S56),
    StableHlo.TRef.binary (.of main_call0_v2 : StableHlo.TRef sig ⟨S56, .i32⟩) (.of main_call0_v12 : StableHlo.TRef sig ⟨S56, .i32⟩) (.of main_call0_v13 : StableHlo.TRef sig ⟨S56, .i32⟩) subi,
    StableHlo.TRef.ternary (.of main_call0_v11 : StableHlo.TRef sig ⟨S56, .i1⟩) (.of main_call0_v13 : StableHlo.TRef sig ⟨S56, .i32⟩) (.of main_call0_v2 : StableHlo.TRef sig ⟨S56, .i32⟩) (.of main_v15 : StableHlo.TRef sig ⟨S56, .i32⟩) select,
    StableHlo.nullary main_v16 (iotaInDim S56 32 0),
    StableHlo.nullary main_c_4 (constantI S_ 32 28#32),
    StableHlo.unary main_c_4 main_v17 (broadcastInDim S56 ![] bcast_S_S56 : (⟨S_, .i32⟩ : BufTy).Contents (Elt F) → (⟨S56, .i32⟩ : BufTy).Contents (Elt F)),
    StableHlo.binary main_v16 main_v17 main_v18 (muli : (⟨S56, .i32⟩ : BufTy).Contents (Elt F) → (⟨S56, .i32⟩ : BufTy).Contents (Elt F) → (⟨S56, .i32⟩ : BufTy).Contents (Elt F)),
    StableHlo.nullary main_c_5 (constantI S_ 32 56#32),
    StableHlo.TRef.unary (.of main_c_5 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S56, .i32⟩) (broadcastInDim S56 ![] bcast_S_S56),
    StableHlo.TRef.binary (.of main_v18 : StableHlo.TRef sig ⟨S56, .i32⟩) (.of main_call1_v1 : StableHlo.TRef sig ⟨S56, .i32⟩) (.of main_call1_v2 : StableHlo.TRef sig ⟨S56, .i32⟩) Host.divsi,
    StableHlo.TRef.unary (.of main_v18 : StableHlo.TRef sig ⟨S56, .i32⟩) (.of main_call1_v3 : StableHlo.TRef sig ⟨S56, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S56, .i32⟩) (broadcastInDim S56 ![] bcast_S_S56),
    StableHlo.TRef.binary (.of main_call1_v3 : StableHlo.TRef sig ⟨S56, .i32⟩) (.of main_call1_v5 : StableHlo.TRef sig ⟨S56, .i32⟩) (.of main_call1_v6 : StableHlo.TRef sig ⟨S56, .i1⟩) (cmpi .ne),
    StableHlo.TRef.unary (.of main_call1_v0 : StableHlo.TRef sig ⟨S_, .i32⟩) (.of main_call1_v7 : StableHlo.TRef sig ⟨S56, .i32⟩) (broadcastInDim S56 ![] bcast_S_S56),
    StableHlo.TRef.binary (.of main_v18 : StableHlo.TRef sig ⟨S56, .i32⟩) (.of main_call1_v7 : StableHlo.TRef sig ⟨S56, .i32⟩) (.of main_call1_v8 : StableHlo.TRef sig ⟨S56, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S56, .i32⟩) (broadcastInDim S56 ![] bcast_S_S56),
    StableHlo.TRef.binary (.of main_call1_v8 : StableHlo.TRef sig ⟨S56, .i32⟩) (.of main_call1_v9 : StableHlo.TRef sig ⟨S56, .i32⟩) (.of main_call1_v10 : StableHlo.TRef sig ⟨S56, .i1⟩) (cmpi .ne),
    StableHlo.TRef.binary (.of main_call1_v6 : StableHlo.TRef sig ⟨S56, .i1⟩) (.of main_call1_v10 : StableHlo.TRef sig ⟨S56, .i1⟩) (.of main_call1_v11 : StableHlo.TRef sig ⟨S56, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S56, .i32⟩) (broadcastInDim S56 ![] bcast_S_S56),
    StableHlo.TRef.binary (.of main_call1_v2 : StableHlo.TRef sig ⟨S56, .i32⟩) (.of main_call1_v12 : StableHlo.TRef sig ⟨S56, .i32⟩) (.of main_call1_v13 : StableHlo.TRef sig ⟨S56, .i32⟩) subi,
    StableHlo.TRef.ternary (.of main_call1_v11 : StableHlo.TRef sig ⟨S56, .i1⟩) (.of main_call1_v13 : StableHlo.TRef sig ⟨S56, .i32⟩) (.of main_call1_v2 : StableHlo.TRef sig ⟨S56, .i32⟩) (.of main_v19 : StableHlo.TRef sig ⟨S56, .i32⟩) select ]

/-- The second stretch: the enlargement, the two picks and the product. -/
abbrev opsTail : List (HloOp τ sig (Elt F)) :=
  [ StableHlo.unary main_v15 main_v20 (broadcastInDim S56x1 ![0] bcast_S56_S56x1_0 : (⟨S56, .i32⟩ : BufTy).Contents (Elt F) → (⟨S56x1, .i32⟩ : BufTy).Contents (Elt F)),
    StableHlo.unary main_v19 main_v21 (broadcastInDim S1x56 ![1] bcast_S56_S1x56_1 : (⟨S56, .i32⟩ : BufTy).Contents (Elt F) → (⟨S1x56, .i32⟩ : BufTy).Contents (Elt F)),
    StableHlo.nullary main_c_6 (constantI S_ 32 0#32),
    StableHlo.unary main_c_6 main_v22 (broadcastInDim S56x1 ![] bcast_S_S56x1 : (⟨S_, .i32⟩ : BufTy).Contents (Elt F) → (⟨S56x1, .i32⟩ : BufTy).Contents (Elt F)),
    StableHlo.binary main_v20 main_v22 main_v23 (cmpi .slt : (⟨S56x1, .i32⟩ : BufTy).Contents (Elt F) → (⟨S56x1, .i32⟩ : BufTy).Contents (Elt F) → (⟨S56x1, .i1⟩ : BufTy).Contents (Elt F)),
    StableHlo.nullary main_c_7 (constantI S_ 32 28#32),
    StableHlo.unary main_c_7 main_v24 (broadcastInDim S56x1 ![] bcast_S_S56x1 : (⟨S_, .i32⟩ : BufTy).Contents (Elt F) → (⟨S56x1, .i32⟩ : BufTy).Contents (Elt F)),
    StableHlo.binary main_v20 main_v24 main_v25 (addi : (⟨S56x1, .i32⟩ : BufTy).Contents (Elt F) → (⟨S56x1, .i32⟩ : BufTy).Contents (Elt F) → (⟨S56x1, .i32⟩ : BufTy).Contents (Elt F)),
    StableHlo.ternary main_v23 main_v25 main_v20 main_v26 (select : (⟨S56x1, .i1⟩ : BufTy).Contents (Elt F) → (⟨S56x1, .i32⟩ : BufTy).Contents (Elt F) → (⟨S56x1, .i32⟩ : BufTy).Contents (Elt F) → (⟨S56x1, .i32⟩ : BufTy).Contents (Elt F)),
    StableHlo.nullary main_c_8 (constantI S_ 32 0#32),
    StableHlo.unary main_c_8 main_v27 (broadcastInDim S1x56 ![] bcast_S_S1x56 : (⟨S_, .i32⟩ : BufTy).Contents (Elt F) → (⟨S1x56, .i32⟩ : BufTy).Contents (Elt F)),
    StableHlo.binary main_v21 main_v27 main_v28 (cmpi .slt : (⟨S1x56, .i32⟩ : BufTy).Contents (Elt F) → (⟨S1x56, .i32⟩ : BufTy).Contents (Elt F) → (⟨S1x56, .i1⟩ : BufTy).Contents (Elt F)),
    StableHlo.nullary main_c_9 (constantI S_ 32 28#32),
    StableHlo.unary main_c_9 main_v29 (broadcastInDim S1x56 ![] bcast_S_S1x56 : (⟨S_, .i32⟩ : BufTy).Contents (Elt F) → (⟨S1x56, .i32⟩ : BufTy).Contents (Elt F)),
    StableHlo.binary main_v21 main_v29 main_v30 (addi : (⟨S1x56, .i32⟩ : BufTy).Contents (Elt F) → (⟨S1x56, .i32⟩ : BufTy).Contents (Elt F) → (⟨S1x56, .i32⟩ : BufTy).Contents (Elt F)),
    StableHlo.ternary main_v28 main_v30 main_v21 main_v31 (select : (⟨S1x56, .i1⟩ : BufTy).Contents (Elt F) → (⟨S1x56, .i32⟩ : BufTy).Contents (Elt F) → (⟨S1x56, .i32⟩ : BufTy).Contents (Elt F) → (⟨S1x56, .i32⟩ : BufTy).Contents (Elt F)),
    StableHlo.unary main_v26 main_v32 (broadcastInDim S56x56 ![0, 1] bcast_S56x1_S56x56_0_1 : (⟨S56x1, .i32⟩ : BufTy).Contents (Elt F) → (⟨S56x56, .i32⟩ : BufTy).Contents (Elt F)),
    StableHlo.unary main_v31 main_v33 (broadcastInDim S56x56 ![0, 1] bcast_S1x56_S56x56_0_1 : (⟨S1x56, .i32⟩ : BufTy).Contents (Elt F) → (⟨S56x56, .i32⟩ : BufTy).Contents (Elt F)),
    StableHlo.unary main_v32 main_v34 (broadcastInDim S56x56x1 ![0, 1] bcast_S56x56_S56x56x1_0_1 : (⟨S56x56, .i32⟩ : BufTy).Contents (Elt F) → (⟨S56x56x1, .i32⟩ : BufTy).Contents (Elt F)),
    StableHlo.unary main_v33 main_v35 (broadcastInDim S56x56x1 ![0, 1] bcast_S56x56_S56x56x1_0_1 : (⟨S56x56, .i32⟩ : BufTy).Contents (Elt F) → (⟨S56x56x1, .i32⟩ : BufTy).Contents (Elt F)),
    StableHlo.binary main_v34 main_v35 main_v36 ((fun a b => concatenate S56x56x2 2 [⟨S56x56x1, a⟩, ⟨S56x56x1, b⟩] concatenates_S56x56x1_S56x56x1_S56x56x2_d2) : (⟨S56x56x1, .i32⟩ : BufTy).Contents (Elt F) → (⟨S56x56x1, .i32⟩ : BufTy).Contents (Elt F) → (⟨S56x56x2, .i32⟩ : BufTy).Contents (Elt F)),
    StableHlo.binary main_v11 main_v36 main_v37 ((fun x i => Host.gather gather_S4x1x1x28x28_S56x56x2_S4x1x1x56x56_012_34_n_n_34_2_41111 x i) : (⟨S4x1x1x28x28, .f32⟩ : BufTy).Contents (Elt F) → (⟨S56x56x2, .i32⟩ : BufTy).Contents (Elt F) → (⟨S4x1x1x56x56, .f32⟩ : BufTy).Contents (Elt F)),
    StableHlo.nullary main_c_10 (constantI S_ 32 0#32),
    StableHlo.unary main_c_10 main_v38 (broadcastInDim S64 ![] bcast_S_S64 : (⟨S_, .i32⟩ : BufTy).Contents (Elt F) → (⟨S64, .i32⟩ : BufTy).Contents (Elt F)),
    StableHlo.binary main_arg1 main_v38 main_v39 (cmpi .slt : (⟨S64, .i32⟩ : BufTy).Contents (Elt F) → (⟨S64, .i32⟩ : BufTy).Contents (Elt F) → (⟨S64, .i1⟩ : BufTy).Contents (Elt F)),
    StableHlo.nullary main_c_11 (constantI S_ 32 4#32),
    StableHlo.unary main_c_11 main_v40 (broadcastInDim S64 ![] bcast_S_S64 : (⟨S_, .i32⟩ : BufTy).Contents (Elt F) → (⟨S64, .i32⟩ : BufTy).Contents (Elt F)),
    StableHlo.binary main_arg1 main_v40 main_v41 (addi : (⟨S64, .i32⟩ : BufTy).Contents (Elt F) → (⟨S64, .i32⟩ : BufTy).Contents (Elt F) → (⟨S64, .i32⟩ : BufTy).Contents (Elt F)),
    StableHlo.ternary main_v39 main_v41 main_arg1 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_12 (constantI S_ 32 0#32),
    StableHlo.unary main_c_12 main_v43 (broadcastInDim S64 ![] bcast_S_S64 : (⟨S_, .i32⟩ : BufTy).Contents (Elt F) → (⟨S64, .i32⟩ : BufTy).Contents (Elt F)),
    StableHlo.unary main_v43 main_v44 (id : (⟨S64, .i32⟩ : BufTy).Contents (Elt F) → (⟨S64, .i32⟩ : BufTy).Contents (Elt F)),
    StableHlo.unary main_v42 main_v45 (broadcastInDim S64x1 ![0] bcast_S64_S64x1_0 : (⟨S64, .i32⟩ : BufTy).Contents (Elt F) → (⟨S64x1, .i32⟩ : BufTy).Contents (Elt F)),
    StableHlo.unary main_v44 main_v46 (broadcastInDim S64x1 ![0] bcast_S64_S64x1_0 : (⟨S64, .i32⟩ : BufTy).Contents (Elt F) → (⟨S64x1, .i32⟩ : BufTy).Contents (Elt F)),
    StableHlo.binary main_v45 main_v46 main_v47 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v5 main_v47 main_v48 ((fun x i => Host.gather gather_S4x1x256x1x1_S64x2_S64x256x1x1_123_01_n_n_01_1_1125611 x i) : (⟨S4x1x256x1x1, .f32⟩ : BufTy).Contents (Elt F) → (⟨S64x2, .i32⟩ : BufTy).Contents (Elt F) → (⟨S64x256x1x1, .f32⟩ : BufTy).Contents (Elt F)),
    StableHlo.nullary main_c_13 (constantI S_ 32 0#32),
    StableHlo.unary main_c_13 main_v49 (broadcastInDim S64 ![] bcast_S_S64 : (⟨S_, .i32⟩ : BufTy).Contents (Elt F) → (⟨S64, .i32⟩ : BufTy).Contents (Elt F)),
    StableHlo.binary main_arg1 main_v49 main_v50 (cmpi .slt : (⟨S64, .i32⟩ : BufTy).Contents (Elt F) → (⟨S64, .i32⟩ : BufTy).Contents (Elt F) → (⟨S64, .i1⟩ : BufTy).Contents (Elt F)),
    StableHlo.nullary main_c_14 (constantI S_ 32 4#32),
    StableHlo.unary main_c_14 main_v51 (broadcastInDim S64 ![] bcast_S_S64 : (⟨S_, .i32⟩ : BufTy).Contents (Elt F) → (⟨S64, .i32⟩ : BufTy).Contents (Elt F)),
    StableHlo.binary main_arg1 main_v51 main_v52 (addi : (⟨S64, .i32⟩ : BufTy).Contents (Elt F) → (⟨S64, .i32⟩ : BufTy).Contents (Elt F) → (⟨S64, .i32⟩ : BufTy).Contents (Elt F)),
    StableHlo.ternary main_v50 main_v52 main_arg1 main_v53 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.nullary main_c_15 (constantI S_ 32 0#32),
    StableHlo.unary main_c_15 main_v54 (broadcastInDim S64 ![] bcast_S_S64 : (⟨S_, .i32⟩ : BufTy).Contents (Elt F) → (⟨S64, .i32⟩ : BufTy).Contents (Elt F)),
    StableHlo.unary main_v54 main_v55 (id : (⟨S64, .i32⟩ : BufTy).Contents (Elt F) → (⟨S64, .i32⟩ : BufTy).Contents (Elt F)),
    StableHlo.unary main_v53 main_v56 (broadcastInDim S64x1 ![0] bcast_S64_S64x1_0 : (⟨S64, .i32⟩ : BufTy).Contents (Elt F) → (⟨S64x1, .i32⟩ : BufTy).Contents (Elt F)),
    StableHlo.unary main_v55 main_v57 (broadcastInDim S64x1 ![0] bcast_S64_S64x1_0 : (⟨S64, .i32⟩ : BufTy).Contents (Elt F) → (⟨S64x1, .i32⟩ : BufTy).Contents (Elt F)),
    StableHlo.binary main_v56 main_v57 main_v58 ((fun a b => concatenate S64x2 1 [⟨S64x1, a⟩, ⟨S64x1, b⟩] concatenates_S64x1_S64x1_S64x2_d1) : (⟨S64x1, .i32⟩ : BufTy).Contents (Elt F) → (⟨S64x1, .i32⟩ : BufTy).Contents (Elt F) → (⟨S64x2, .i32⟩ : BufTy).Contents (Elt F)),
    StableHlo.binary main_v37 main_v58 main_v59 ((fun x i => Host.gather gather_S4x1x1x56x56_S64x2_S64x1x56x56_123_01_n_n_01_1_1115656 x i) : (⟨S4x1x1x56x56, .f32⟩ : BufTy).Contents (Elt F) → (⟨S64x2, .i32⟩ : BufTy).Contents (Elt F) → (⟨S64x1x56x56, .f32⟩ : BufTy).Contents (Elt F)),
    StableHlo.unary main_v48 main_v60 (broadcastInDim S64x256x56x56 ![0, 1, 2, 3] bcast_S64x256x1x1_S64x256x56x56_0_1_2_3 : (⟨S64x256x1x1, .f32⟩ : BufTy).Contents (Elt F) → (⟨S64x256x56x56, .f32⟩ : BufTy).Contents (Elt F)),
    StableHlo.binary main_arg0 main_v60 main_v61 (mulf : (⟨S64x256x56x56, .f32⟩ : BufTy).Contents (Elt F) → (⟨S64x256x56x56, .f32⟩ : BufTy).Contents (Elt F) → (⟨S64x256x56x56, .f32⟩ : BufTy).Contents (Elt F)),
    StableHlo.unary main_v59 main_v62 (broadcastInDim S64x256x56x56 ![0, 1, 2, 3] bcast_S64x1x56x56_S64x256x56x56_0_1_2_3 : (⟨S64x1x56x56, .f32⟩ : BufTy).Contents (Elt F) → (⟨S64x256x56x56, .f32⟩ : BufTy).Contents (Elt F)),
    StableHlo.binary main_v61 main_v62 main_v63 (mulf : (⟨S64x256x56x56, .f32⟩ : BufTy).Contents (Elt F) → (⟨S64x256x56x56, .f32⟩ : BufTy).Contents (Elt F) → (⟨S64x256x56x56, .f32⟩ : BufTy).Contents (Elt F)) ]

theorem ops_split : (ops : List (HloOp τ sig (Elt F))) = opsPre ++ opsTail := rfl

/-- The fold of all the operations is the fold of the second stretch over the fold of the first. -/
theorem after_ops (V : Valuation τ sig (Elt F)) (b : DevRef τ sig) : after ops V b = after opsTail (after opsPre V) b := by
  rw [ops_split, StableHlo.after_append]

theorem pre_chanGate (V : Valuation τ sig (Elt F)) :
    (after opsPre V (main_v5 : DevRef τ sig) : S4x1x256x1x1.Idx → Elt F .f32)
      = Cert.Gates.chanGate (V (main_arg2 : DevRef τ sig)) := by
  after_results_simp
  rfl

theorem pre_spatGate28 (V : Valuation τ sig (Elt F)) :
    (after opsPre V (main_v11 : DevRef τ sig) : S4x1x1x28x28.Idx → Elt F .f32)
      = Cert.Gates.spatGate28 (V (main_arg3 : DevRef τ sig)) := by
  after_results_simp
  rfl

set_option maxHeartbeats 2000000 in
theorem pre_rows (V : Valuation τ sig (Elt F)) :
    (after opsPre V (main_v15 : DevRef τ sig) : S56.Idx → BitVec 32) = Cert.Gates.srcIdx := by
  after_results_simp
  rfl

set_option maxHeartbeats 2000000 in
theorem pre_cols (V : Valuation τ sig (Elt F)) :
    (after opsPre V (main_v19 : DevRef τ sig) : S56.Idx → BitVec 32) = Cert.Gates.srcIdx := by
  after_results_simp
  rfl

theorem pre_arg0 (V : Valuation τ sig (Elt F)) : after opsPre V (main_arg0 : DevRef τ sig) = V (main_arg0 : DevRef τ sig) := by
  after_results_simp

theorem pre_arg1 (V : Valuation τ sig (Elt F)) : after opsPre V (main_arg1 : DevRef τ sig) = V (main_arg1 : DevRef τ sig) := by
  after_results_simp

set_option maxHeartbeats 1000000 in
theorem at_arg0 (V : Valuation τ sig (Elt F)) : after ops V (main_arg0 : DevRef τ sig) = V (main_arg0 : DevRef τ sig) := by
  after_results_simp

set_option maxHeartbeats 1000000 in
theorem at_arg1 (V : Valuation τ sig (Elt F)) : after ops V (main_arg1 : DevRef τ sig) = V (main_arg1 : DevRef τ sig) := by
  after_results_simp

set_option maxHeartbeats 1000000 in
theorem at_arg2 (V : Valuation τ sig (Elt F)) : after ops V (main_arg2 : DevRef τ sig) = V (main_arg2 : DevRef τ sig) := by
  after_results_simp

set_option maxHeartbeats 1000000 in
theorem at_arg3 (V : Valuation τ sig (Elt F)) : after ops V (main_arg3 : DevRef τ sig) = V (main_arg3 : DevRef τ sig) := by
  after_results_simp

/-- Every weakly fair execution of the reference terminates with the four arguments unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (at_arg0 (launchContents m c)),
      (h c main_arg1).trans (at_arg1 (launchContents m c)),
      (h c main_arg2).trans (at_arg2 (launchContents m c)),
      (h c main_arg3).trans (at_arg3 (launchContents m c))⟩)
    (run_fold m ρ)

end Cert.ReferenceIdeal.RefRun

end
-- ==== Proof.LibConcat.lean ====
/-
  Two general tools for reading a fold of host operations when one of them is a concatenation.

  The host's concatenation takes a LIST of arrays, each paired with its shape, and its side condition (the shapes fit
  together along the axis) is stated about that list; so the list cannot be rewritten in place, and a fold of operations
  standing inside it is never read. For two arrays, `cat2` is the same concatenation as a function of the two arrays
  with the shapes fixed first, `concatenate_pair` says so, and the tactic `fold_results` reads a fold of nullary to
  ternary host operations at a buffer — each operation's result at its own buffer is its function of its operands, at
  any other buffer what was there — going through two-array concatenations by that equation.
-/
import Idealize.ShloMosaic.Lib.StableHlo.Run

noncomputable section

namespace Cert.LibConcat

open Idealize.ShloMosaic Idealize.ShloMosaic.StableHlo

variable {α : Type}

/-- The concatenation of two arrays along axis `a`, as a function of the two arrays. -/
def cat2 (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The host's concatenation of a two-element list is `cat2` of its two arrays. -/
theorem concatenate_pair (t : Shape) (a : Fin t.rank) (s1 s2 : Shape) (x : s1.Idx → α) (y : s2.Idx → α)
    (h : Shape.Concatenates (List.map (Sigma.fst (β := fun s : Shape => s.Idx → α)) [⟨s1, x⟩, ⟨s2, y⟩]) t a) :
    concatenate t a [⟨s1, x⟩, ⟨s2, y⟩] h = cat2 t a s1 s2 h x y := rfl

/-- Reads a fold of host operations at a buffer, in one simplification pass, through two-array concatenations. -/
macro "fold_results" : tactic =>
  `(tactic| (simp (disch := decide) only [after_cons, after_nil,
      nullary_result', unary_result', binary_result', ternary_result',
      nullary_result_ne', unary_result_ne', binary_result_ne', ternary_result_ne', concatenate_pair]))

end Cert.LibConcat

end
-- ==== Proof.Tail.lean ====
/-
  The second stretches of the two programs' host operations compute the same things from the same things. Both
  enlarge the spatial gate by sampling it at the source positions, pick each sample's row of the channel gate and map
  of the enlarged spatial gate by its label, and (the reference only) multiply. So from starting contents that agree
  on `x`, the labels, the channel gate, the 28 × 28 spatial gate and the two vectors of source positions, the
  reference's stretch leaves the channel gate and the enlarged spatial gate that the kernel's stretch leaves, and its
  product is the host's gated product of `x` with the two picked gates that the kernel's stretch leaves for its
  region. Operation for operation the two stretches are the same text; nothing is computed.
-/
import proofs.«118643_j45870250721474_2_alg».proof.Proof.KernelHost
import proofs.«118643_j45870250721474_2_alg».proof.Proof.RefVals
import proofs.«118643_j45870250721474_2_alg».proof.Proof.LibConcat

noncomputable section

namespace Cert.Tail

open Idealize.ShloMosaic Idealize.SL.Sem Idealize.ShloMosaic.StableHlo Cert.LibConcat

variable {F : FTy → Type} [FloatOps F]

/-- The channel gate is left where it was by both stretches. -/
theorem chan (W : Valuation Cert.KernelIdeal.τ Cert.KernelIdeal.sig (Elt F)) (W' : Valuation Cert.ReferenceIdeal.τ Cert.ReferenceIdeal.sig (Elt F))
    (h5 : (W' (Proc.devRef .tc Cert.ReferenceIdeal.main_v5 : DevRef Cert.ReferenceIdeal.τ Cert.ReferenceIdeal.sig) : Cert.ReferenceIdeal.S4x1x256x1x1.Idx → Elt F .f32) = W (Proc.devRef .tc Cert.KernelIdeal.main_v5 : DevRef Cert.KernelIdeal.τ Cert.KernelIdeal.sig)) :
    (after Cert.ReferenceIdeal.RefRun.opsTail W' (Proc.devRef .tc Cert.ReferenceIdeal.main_v5 : DevRef Cert.ReferenceIdeal.τ Cert.ReferenceIdeal.sig) : Cert.ReferenceIdeal.S4x1x256x1x1.Idx → Elt F .f32)
      = after Cert.KernelIdeal.Gen.hostOps0_4 W (Proc.devRef .tc Cert.KernelIdeal.main_v5 : DevRef Cert.KernelIdeal.τ Cert.KernelIdeal.sig) := by
  simp only [Cert.KernelIdeal.Gen.hostOps0_4]
  fold_results
  exact h5

set_option maxHeartbeats 1000000 in
/-- Both stretches enlarge the same spatial gate at the same source positions. -/
theorem spat (W : Valuation Cert.KernelIdeal.τ Cert.KernelIdeal.sig (Elt F)) (W' : Valuation Cert.ReferenceIdeal.τ Cert.ReferenceIdeal.sig (Elt F))
    (h11 : (W' (Proc.devRef .tc Cert.ReferenceIdeal.main_v11 : DevRef Cert.ReferenceIdeal.τ Cert.ReferenceIdeal.sig) : Cert.ReferenceIdeal.S4x1x1x28x28.Idx → Elt F .f32) = W (Proc.devRef .tc Cert.KernelIdeal.main_v11 : DevRef Cert.KernelIdeal.τ Cert.KernelIdeal.sig))
    (h15 : (W' (Proc.devRef .tc Cert.ReferenceIdeal.main_v15 : DevRef Cert.ReferenceIdeal.τ Cert.ReferenceIdeal.sig) : Cert.ReferenceIdeal.S56.Idx → BitVec 32) = W (Proc.devRef .tc Cert.KernelIdeal.main_v15 : DevRef Cert.KernelIdeal.τ Cert.KernelIdeal.sig))
    (h19 : (W' (Proc.devRef .tc Cert.ReferenceIdeal.main_v19 : DevRef Cert.ReferenceIdeal.τ Cert.ReferenceIdeal.sig) : Cert.ReferenceIdeal.S56.Idx → BitVec 32) = W (Proc.devRef .tc Cert.KernelIdeal.main_v19 : DevRef Cert.KernelIdeal.τ Cert.KernelIdeal.sig)) :
    (after Cert.ReferenceIdeal.RefRun.opsTail W' (Proc.devRef .tc Cert.ReferenceIdeal.main_v37 : DevRef Cert.ReferenceIdeal.τ Cert.ReferenceIdeal.sig) : Cert.ReferenceIdeal.S4x1x1x56x56.Idx → Elt F .f32)
      = after Cert.KernelIdeal.Gen.hostOps0_4 W (Proc.devRef .tc Cert.KernelIdeal.main_v37 : DevRef Cert.KernelIdeal.τ Cert.KernelIdeal.sig) := by
  simp only [Cert.KernelIdeal.Gen.hostOps0_4]
  fold_results
  rw [h11, h15, h19]
  rfl

set_option maxHeartbeats 1000000 in
/-- The reference's product is the host's gated product of `x` with the two picked gates the kernel's stretch leaves. -/
theorem prod (W : Valuation Cert.KernelIdeal.τ Cert.KernelIdeal.sig (Elt F)) (W' : Valuation Cert.ReferenceIdeal.τ Cert.ReferenceIdeal.sig (Elt F))
    (h0 : (W' (Proc.devRef .tc Cert.ReferenceIdeal.main_arg0 : DevRef Cert.ReferenceIdeal.τ Cert.ReferenceIdeal.sig) : Cert.ReferenceIdeal.S64x256x56x56.Idx → Elt F .f32) = W (Proc.devRef .tc Cert.KernelIdeal.main_arg0 : DevRef Cert.KernelIdeal.τ Cert.KernelIdeal.sig))
    (h1 : (W' (Proc.devRef .tc Cert.ReferenceIdeal.main_arg1 : DevRef Cert.ReferenceIdeal.τ Cert.ReferenceIdeal.sig) : Cert.ReferenceIdeal.S64.Idx → BitVec 32) = W (Proc.devRef .tc Cert.KernelIdeal.main_arg1 : DevRef Cert.KernelIdeal.τ Cert.KernelIdeal.sig))
    (h5 : (W' (Proc.devRef .tc Cert.ReferenceIdeal.main_v5 : DevRef Cert.ReferenceIdeal.τ Cert.ReferenceIdeal.sig) : Cert.ReferenceIdeal.S4x1x256x1x1.Idx → Elt F .f32) = W (Proc.devRef .tc Cert.KernelIdeal.main_v5 : DevRef Cert.KernelIdeal.τ Cert.KernelIdeal.sig))
    (h11 : (W' (Proc.devRef .tc Cert.ReferenceIdeal.main_v11 : DevRef Cert.ReferenceIdeal.τ Cert.ReferenceIdeal.sig) : Cert.ReferenceIdeal.S4x1x1x28x28.Idx → Elt F .f32) = W (Proc.devRef .tc Cert.KernelIdeal.main_v11 : DevRef Cert.KernelIdeal.τ Cert.KernelIdeal.sig))
    (h15 : (W' (Proc.devRef .tc Cert.ReferenceIdeal.main_v15 : DevRef Cert.ReferenceIdeal.τ Cert.ReferenceIdeal.sig) : Cert.ReferenceIdeal.S56.Idx → BitVec 32) = W (Proc.devRef .tc Cert.KernelIdeal.main_v15 : DevRef Cert.KernelIdeal.τ Cert.KernelIdeal.sig))
    (h19 : (W' (Proc.devRef .tc Cert.ReferenceIdeal.main_v19 : DevRef Cert.ReferenceIdeal.τ Cert.ReferenceIdeal.sig) : Cert.ReferenceIdeal.S56.Idx → BitVec 32) = W (Proc.devRef .tc Cert.KernelIdeal.main_v19 : DevRef Cert.KernelIdeal.τ Cert.KernelIdeal.sig)) :
    (after Cert.ReferenceIdeal.RefRun.opsTail W' (Proc.devRef .tc Cert.ReferenceIdeal.main_v63 : DevRef Cert.ReferenceIdeal.τ Cert.ReferenceIdeal.sig) : Cert.ReferenceIdeal.S64x256x56x56.Idx → Elt F .f32)
      = Cert.Gates.gated (W (Proc.devRef .tc Cert.KernelIdeal.main_arg0 : DevRef Cert.KernelIdeal.τ Cert.KernelIdeal.sig))
          (after Cert.KernelIdeal.Gen.hostOps0_4 W (Proc.devRef .tc Cert.KernelIdeal.main_v48 : DevRef Cert.KernelIdeal.τ Cert.KernelIdeal.sig)) (after Cert.KernelIdeal.Gen.hostOps0_4 W (Proc.devRef .tc Cert.KernelIdeal.main_v59 : DevRef Cert.KernelIdeal.τ Cert.KernelIdeal.sig)) := by
  simp only [Cert.KernelIdeal.Gen.hostOps0_4]
  fold_results
  rw [h0, h1, h5, h11, h15, h19]
  rfl

end Cert.Tail

end
-- ==== Proof.Bridge.lean ====
/-
  The host's gated product and the kernel's are one function. On the host, `x` is multiplied by the channel gate
  spread over the two spatial axes and then by the spatial gate spread over the channel axis; a spread array read at
  (n, c, h, w) is the gate read at (n, c, 0, 0), respectively (n, 0, h, w), which is where the kernel's result reads
  them. Both multiply in the same order, so no law of the extended reals is needed.
-/
import proofs.«118643_j45870250721474_2_alg».proof.Proof.HostChain
import proofs.«118643_j45870250721474_2_alg».proof.Proof.KernelArray
import Idealize.ShloMosaic.Lib.Pipeline.Value

noncomputable section

namespace Cert.Bridge

open Idealize.ShloMosaic Cert.KernelIdeal Cert.KernelIdeal.Arr

variable {F : FTy → Type} [FloatOps F]

/-- The channel gate spread over the spatial axes, read at an entry. -/
theorem spreadC_apply (gc : S64x256x1x1.Idx → Elt F .f32) (i : S64x256x56x56.Idx) :
    broadcastInDim (s := Cert.ReferenceIdeal.S64x256x1x1) Cert.ReferenceIdeal.S64x256x56x56 ![0, 1, 2, 3]
        Cert.ReferenceIdeal.Facts₀.bcast_S64x256x1x1_S64x256x56x56_0_1_2_3 gc i = gc (chanIdx i) :=
  broadcastInDim_apply _ _ gc i (chanIdx i) (fun a => match a with
    | ⟨0, _⟩ => by show (i 0).val = (if (64 : Nat) = 1 then 0 else (i 0).val); rw [if_neg (by decide)]
    | ⟨1, _⟩ => by show (i 1).val = (if (256 : Nat) = 1 then 0 else (i 1).val); rw [if_neg (by decide)]
    | ⟨2, _⟩ => by show 0 = (if (1 : Nat) = 1 then 0 else (i 2).val); rw [if_pos rfl]
    | ⟨3, _⟩ => by show 0 = (if (1 : Nat) = 1 then 0 else (i 3).val); rw [if_pos rfl])

/-- The spatial gate spread over the channel axis, read at an entry. -/
theorem spreadS_apply (gs : S64x1x56x56.Idx → Elt F .f32) (i : S64x256x56x56.Idx) :
    broadcastInDim (s := Cert.ReferenceIdeal.S64x1x56x56) Cert.ReferenceIdeal.S64x256x56x56 ![0, 1, 2, 3]
        Cert.ReferenceIdeal.Facts₀.bcast_S64x1x56x56_S64x256x56x56_0_1_2_3 gs i = gs (spatIdx i) :=
  broadcastInDim_apply _ _ gs i (spatIdx i) (fun a => match a with
    | ⟨0, _⟩ => by show (i 0).val = (if (64 : Nat) = 1 then 0 else (i 0).val); rw [if_neg (by decide)]
    | ⟨1, _⟩ => by show 0 = (if (1 : Nat) = 1 then 0 else (i 1).val); rw [if_pos rfl]
    | ⟨2, _⟩ => by show (i 2).val = (if (56 : Nat) = 1 then 0 else (i 2).val); rw [if_neg (by decide)]
    | ⟨3, _⟩ => by show (i 3).val = (if (56 : Nat) = 1 then 0 else (i 3).val); rw [if_neg (by decide)])

/-- The host's gated product is the kernel's, entry by entry. -/
theorem gated_eq (x : S64x256x56x56.Idx → Elt F .f32) (gc : S64x256x1x1.Idx → Elt F .f32)
    (gs : S64x1x56x56.Idx → Elt F .f32) :
    Cert.Gates.gated x gc gs = gatedAt x gc gs := by
  funext i
  show FloatOps.mulf (FloatOps.mulf (x i) (broadcastInDim (s := Cert.ReferenceIdeal.S64x256x1x1) Cert.ReferenceIdeal.S64x256x56x56 ![0, 1, 2, 3]
        Cert.ReferenceIdeal.Facts₀.bcast_S64x256x1x1_S64x256x56x56_0_1_2_3 gc i))
      (broadcastInDim (s := Cert.ReferenceIdeal.S64x1x56x56) Cert.ReferenceIdeal.S64x256x56x56 ![0, 1, 2, 3]
        Cert.ReferenceIdeal.Facts₀.bcast_S64x1x56x56_S64x256x56x56_0_1_2_3 gs i)
    = FloatOps.mulf (FloatOps.mulf (x i) (gc (chanIdx i))) (gs (spatIdx i))
  rw [spreadC_apply gc i, spreadS_apply gs i]

end Cert.Bridge

end
-- ==== Proof.Join.lean ====
/-
  The reference's three results are the kernel's. From memories that agree on the four arguments: after their first
  stretches of host operations the two programs hold the same `x`, labels, channel gate, 28 × 28 spatial gate and
  source positions (each side's are the same functions of its arguments, and the arguments agree); so their second
  stretches leave the same channel gate and enlarged spatial gate, and the reference's product is the host's gated
  product of `x` with the picked gates the kernel's region finds, which entry by entry is the kernel's result array.
-/
import proofs.«118643_j45870250721474_2_alg».proof.Proof.Tail
import proofs.«118643_j45870250721474_2_alg».proof.Proof.Bridge

noncomputable section

namespace Cert.Join

open Idealize.ShloMosaic Idealize.SL.Sem Idealize.ShloMosaic.StableHlo

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ) (c : Dev Cert.KernelIdeal.nD)

/-- The kernel's contents after its first stretch of host operations. -/
abbrev Wk : Valuation Cert.KernelIdeal.τ Cert.KernelIdeal.sig (Elt F) := after Cert.KernelIdeal.HostVals.preOps (fun b => m (c, b))
/-- The reference's contents after its first stretch. -/
abbrev Wr : Valuation Cert.ReferenceIdeal.τ Cert.ReferenceIdeal.sig (Elt F) := after Cert.ReferenceIdeal.RefRun.opsPre (launchContents m' c)

variable (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include g0 in
theorem h0 : (Wr m' c (Proc.devRef .tc Cert.ReferenceIdeal.main_arg0 : DevRef Cert.ReferenceIdeal.τ Cert.ReferenceIdeal.sig) : Cert.ReferenceIdeal.S64x256x56x56.Idx → Elt F .f32) = Wk m c (Proc.devRef .tc Cert.KernelIdeal.main_arg0 : DevRef Cert.KernelIdeal.τ Cert.KernelIdeal.sig) :=
  (Cert.ReferenceIdeal.RefRun.pre_arg0 (launchContents m' c)).trans (g0.trans (Cert.KernelIdeal.HostVals.pre_arg0 (fun b => m (c, b))).symm)

include g1 in
theorem h1 : (Wr m' c (Proc.devRef .tc Cert.ReferenceIdeal.main_arg1 : DevRef Cert.ReferenceIdeal.τ Cert.ReferenceIdeal.sig) : Cert.ReferenceIdeal.S64.Idx → BitVec 32) = Wk m c (Proc.devRef .tc Cert.KernelIdeal.main_arg1 : DevRef Cert.KernelIdeal.τ Cert.KernelIdeal.sig) :=
  (Cert.ReferenceIdeal.RefRun.pre_arg1 (launchContents m' c)).trans (g1.trans (Cert.KernelIdeal.HostVals.pre_arg1 (fun b => m (c, b))).symm)

include g2 in
theorem h5 : (Wr m' c (Proc.devRef .tc Cert.ReferenceIdeal.main_v5 : DevRef Cert.ReferenceIdeal.τ Cert.ReferenceIdeal.sig) : Cert.ReferenceIdeal.S4x1x256x1x1.Idx → Elt F .f32) = Wk m c (Proc.devRef .tc Cert.KernelIdeal.main_v5 : DevRef Cert.KernelIdeal.τ Cert.KernelIdeal.sig) :=
  (Cert.ReferenceIdeal.RefRun.pre_chanGate (launchContents m' c)).trans
    ((congrArg Cert.Gates.chanGate g2).trans (Cert.KernelIdeal.HostVals.pre_chanGate (fun b => m (c, b))).symm)

include g3 in
theorem h11 : (Wr m' c (Proc.devRef .tc Cert.ReferenceIdeal.main_v11 : DevRef Cert.ReferenceIdeal.τ Cert.ReferenceIdeal.sig) : Cert.ReferenceIdeal.S4x1x1x28x28.Idx → Elt F .f32) = Wk m c (Proc.devRef .tc Cert.KernelIdeal.main_v11 : DevRef Cert.KernelIdeal.τ Cert.KernelIdeal.sig) :=
  (Cert.ReferenceIdeal.RefRun.pre_spatGate28 (launchContents m' c)).trans
    ((congrArg Cert.Gates.spatGate28 g3).trans (Cert.KernelIdeal.HostVals.pre_spatGate28 (fun b => m (c, b))).symm)

theorem h15 : (Wr m' c (Proc.devRef .tc Cert.ReferenceIdeal.main_v15 : DevRef Cert.ReferenceIdeal.τ Cert.ReferenceIdeal.sig) : Cert.ReferenceIdeal.S56.Idx → BitVec 32) = Wk m c (Proc.devRef .tc Cert.KernelIdeal.main_v15 : DevRef Cert.KernelIdeal.τ Cert.KernelIdeal.sig) :=
  (Cert.ReferenceIdeal.RefRun.pre_rows (launchContents m' c)).trans (Cert.KernelIdeal.HostVals.pre_rows (fun b => m (c, b))).symm

theorem h19 : (Wr m' c (Proc.devRef .tc Cert.ReferenceIdeal.main_v19 : DevRef Cert.ReferenceIdeal.τ Cert.ReferenceIdeal.sig) : Cert.ReferenceIdeal.S56.Idx → BitVec 32) = Wk m c (Proc.devRef .tc Cert.KernelIdeal.main_v19 : DevRef Cert.KernelIdeal.τ Cert.KernelIdeal.sig) :=
  (Cert.ReferenceIdeal.RefRun.pre_cols (launchContents m' c)).trans (Cert.KernelIdeal.HostVals.pre_cols (fun b => m (c, b))).symm

include g2 in
/-- The reference's channel gate is what the kernel's region finds. -/
theorem chan_eq :
    (after Cert.ReferenceIdeal.RefRun.ops (launchContents m' c) (Proc.devRef .tc Cert.ReferenceIdeal.main_v5 : DevRef Cert.ReferenceIdeal.τ Cert.ReferenceIdeal.sig) : Cert.ReferenceIdeal.S4x1x256x1x1.Idx → Elt F .f32)
      = Cert.KernelIdeal.Gen.V m c Cert.KernelIdeal.main_v5 :=
  (Cert.ReferenceIdeal.RefRun.after_ops _ _).trans ((Cert.Tail.chan (Wk m c) (Wr m' c) (h5 m m' c g2)).trans
    (Cert.KernelIdeal.HostVals.V_split m c Cert.KernelIdeal.main_v5).symm)

include g3 in
/-- The reference's enlarged spatial gate is what the kernel's region finds. -/
theorem spat_eq :
    (after Cert.ReferenceIdeal.RefRun.ops (launchContents m' c) (Proc.devRef .tc Cert.ReferenceIdeal.main_v37 : DevRef Cert.ReferenceIdeal.τ Cert.ReferenceIdeal.sig) : Cert.ReferenceIdeal.S4x1x1x56x56.Idx → Elt F .f32)
      = Cert.KernelIdeal.Gen.V m c Cert.KernelIdeal.main_v37 :=
  (Cert.ReferenceIdeal.RefRun.after_ops _ _).trans ((Cert.Tail.spat (Wk m c) (Wr m' c) (h11 m m' c g3) (h15 m m' c) (h19 m m' c)).trans
    (Cert.KernelIdeal.HostVals.V_split m c Cert.KernelIdeal.main_v37).symm)

include g0 g1 g2 g3 in
/-- The reference's product is the kernel's result array. -/
theorem prod_eq :
    (after Cert.ReferenceIdeal.RefRun.ops (launchContents m' c) (Proc.devRef .tc Cert.ReferenceIdeal.main_v63 : DevRef Cert.ReferenceIdeal.τ Cert.ReferenceIdeal.sig) : Cert.ReferenceIdeal.S64x256x56x56.Idx → Elt F .f32)
      = Cert.KernelIdeal.Arr.gatedAt (m ((c.tc : Thread Cert.KernelIdeal.nD Cert.KernelIdeal.τ).loc Cert.KernelIdeal.main_arg0)) (Cert.KernelIdeal.Gen.V m c Cert.KernelIdeal.main_v48) (Cert.KernelIdeal.Gen.V m c Cert.KernelIdeal.main_v59) := by
  refine (Cert.ReferenceIdeal.RefRun.after_ops _ _).trans ((Cert.Tail.prod (Wk m c) (Wr m' c) (h0 m m' c g0) (h1 m m' c g1)
    (h5 m m' c g2) (h11 m m' c g3) (h15 m m' c) (h19 m m' c)).trans ?_)
  rw [← Cert.KernelIdeal.HostVals.V_split m c Cert.KernelIdeal.main_v48, ← Cert.KernelIdeal.HostVals.V_split m c Cert.KernelIdeal.main_v59,
    show Wk m c (Proc.devRef .tc Cert.KernelIdeal.main_arg0 : DevRef Cert.KernelIdeal.τ Cert.KernelIdeal.sig) = m ((c.tc : Thread Cert.KernelIdeal.nD Cert.KernelIdeal.τ).loc Cert.KernelIdeal.main_arg0) from Cert.KernelIdeal.HostVals.pre_arg0 (fun b => m (c, b))]
  exact Cert.Bridge.gated_eq _ _ _

end Cert.Join

end
-- ==== Proof.lean ====
/-
  Per-sample channel and spatial gating of a 64 × 256 × 56 × 56 array: the kernel's program against its reference.

  Both programs first compute, on the host and with the same operations in the same order, the logistic function
  of a 4 × 256 channel table and of a 4 × 28 × 28 spatial table, enlarge the latter to 56 × 56 by nearest-neighbour
  sampling, and pick for each of the 64 samples the row, respectively the map, its integer label names. The reference
  then multiplies `x` by the picked channel gate spread over the spatial axes and by the picked spatial gate spread
  over the channel axis; the kernel's program does that product in a grid of 64 points, one sample per point, each
  block of the result being x(c, h, w) · gc(c) · gs(h, w). Both return the product, the channel gate and the enlarged
  spatial gate.

  At the ideal instance the two products are the same function entry by entry, multiplied in the same order, so no
  law of the extended reals (and no finiteness of the inputs) is used. The proof:
  * the kernel's result array is ONE function of the arrays its region finds (the 64 blocks are disjoint
    restrictions of it and cover the array);
  * the reference's run is the fold of its 114 host operations;
  * from agreeing arguments the two programs' host operations leave the same gates (their first stretches as the same
    small functions of the arguments, their second stretches operation for operation), and the host's
    spread-and-multiply read at an entry is the kernel's entrywise product.
  The kernel's idealization rewrote nothing, so `preserves` has no content; the kernels' frames are the generated
  frame runs, the reference's is its run read at the arguments.
-/
import proofs.«118643_j45870250721474_2_alg».proof.Defs
import proofs.«118643_j45870250721474_2_alg».proof.Proof.Gen.Kernel
import proofs.«118643_j45870250721474_2_alg».proof.Proof.Gen.Kernel.Skeleton
import proofs.«118643_j45870250721474_2_alg».proof.Proof.Gen.Kernel.Launch
import proofs.«118643_j45870250721474_2_alg».proof.Proof.Gen.Kernel.Points
import proofs.«118643_j45870250721474_2_alg».proof.Proof.Gen.Kernel.Frame
import proofs.«118643_j45870250721474_2_alg».proof.Proof.Gen.KernelIdeal
import proofs.«118643_j45870250721474_2_alg».proof.Proof.Gen.KernelIdeal.Skeleton
import proofs.«118643_j45870250721474_2_alg».proof.Proof.Gen.KernelIdeal.Launch
import proofs.«118643_j45870250721474_2_alg».proof.Proof.Gen.KernelIdeal.Points
import proofs.«118643_j45870250721474_2_alg».proof.Proof.Gen.KernelIdeal.Frame
import proofs.«118643_j45870250721474_2_alg».proof.Proof.Gen.KernelIdeal.Value
import proofs.«118643_j45870250721474_2_alg».proof.Proof.Gen.ReferenceIdeal
import proofs.«118643_j45870250721474_2_alg».proof.Proof.Gen.Pre_finite_inputs
import proofs.«118643_j45870250721474_2_alg».proof.Proof.KernelArray
import proofs.«118643_j45870250721474_2_alg».proof.Proof.Join
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run read at the arguments, which no operation writes. -/
theorem frame_ri : Cert.frame_ReferenceIdeal := fun m ρ _ => Cert.ReferenceIdeal.RefRun.run_args (F := Ideal) m ρ

/-- The idealization rewrote no operation. -/
theorem preserves : Cert.preserves_Kernel_KernelIdeal := trivial

/-- Both programs end with the same product, channel gate and enlarged spatial gate: the kernel's as its run leaves
    them, the reference's equal to those from agreeing arguments. -/
theorem algebraic : Cert.algebraic_KernelIdeal_ReferenceIdeal := by
  intro m ρ m' ρ' _ hagree
  refine ⟨fun c => Cert.KernelIdeal.Arr.gatedAt (F := Ideal)
        (m ((c.tc : Thread Cert.KernelIdeal.nD Cert.KernelIdeal.τ).loc Cert.KernelIdeal.main_arg0))
        (Cert.KernelIdeal.Gen.V m c Cert.KernelIdeal.main_v48) (Cert.KernelIdeal.Gen.V m c Cert.KernelIdeal.main_v59),
      fun c => Cert.KernelIdeal.Gen.V m c Cert.KernelIdeal.main_v5,
      fun c => Cert.KernelIdeal.Gen.V m c Cert.KernelIdeal.main_v37, ?_, ?_⟩
  · exact Cert.KernelIdeal.Arr.run (F := Ideal) m ρ
  · refine (θ_run Cert.ReferenceIdeal.defs _ _).mono (fun _ h c => ?_)
      (Cert.ReferenceIdeal.RefRun.run_fold (F := Ideal) m' ρ')
    obtain ⟨g0, g1, g2, g3⟩ := hagree c
    exact ⟨(h c Cert.ReferenceIdeal.main_v63).trans (Cert.Join.prod_eq m m' c g0 g1 g2 g3),
      (h c Cert.ReferenceIdeal.main_v5).trans (Cert.Join.chan_eq m m' c g2),
      (h c Cert.ReferenceIdeal.main_v37).trans (Cert.Join.spat_eq m m' c g3),
      (h c Cert.ReferenceIdeal.main_arg0).trans (Cert.ReferenceIdeal.RefRun.at_arg0 _),
      (h c Cert.ReferenceIdeal.main_arg1).trans (Cert.ReferenceIdeal.RefRun.at_arg1 _),
      (h c Cert.ReferenceIdeal.main_arg2).trans (Cert.ReferenceIdeal.RefRun.at_arg2 _),
      (h c Cert.ReferenceIdeal.main_arg3).trans (Cert.ReferenceIdeal.RefRun.at_arg3 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
